-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x1024 : Shape := ⟨3, ![8, 512, 1024]⟩
abbrev S8x1x1x512 : Shape := ⟨4, ![8, 1, 1, 512]⟩
abbrev S1024x1024 : Shape := ⟨2, ![1024, 1024]⟩
abbrev S1024 : Shape := ⟨1, ![1024]⟩
abbrev S_ : Shape := ⟨0, ![]⟩

class Facts : Prop where
  bcast_S_S8x512x1024 : S_.BroadcastsInDim S8x512x1024 (![] : Fin 0 → Fin S8x512x1024.rank)
  reducesTo_S8x512x1024_S_d0_1_2 : S8x512x1024.ReducesTo [0, 1, 2] S_
  h_S_ : 0 < S_.numel
  bcast_S_S8x1x1x512 : S_.BroadcastsInDim S8x1x1x512 (![] : Fin 0 → Fin S8x1x1x512.rank)
  reducesTo_S8x1x1x512_S_d0_1_2_3 : S8x1x1x512.ReducesTo [0, 1, 2, 3] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S8x512x1024 .f32) (main_arg1 : FVec F S8x1x1x512 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S8x512x1024 .f32 := Host.absf main_arg0
  let main_cst : FVec F S_ .f32 := constant S_ .f32 0x7F800000#32
  let main_v1 : FVec F S8x512x1024 .f32 := broadcastInDim S8x512x1024 ![] bcast_S_S8x512x1024 main_cst
  let main_v2 : IVec S8x512x1024 1 := cmpf .olt main_v0 main_v1
  let main_c : IVec S_ 1 := constantI S_ 1 1#1
  let main_v3 : IVec S_ 1 := (fun x v => Host.reduce IntOp.andi x v reducesTo_S8x512x1024_S_d0_1_2 h_S_) main_v2 main_c
  let main_v4 : FVec F S8x1x1x512 .f32 := Host.absf main_arg1
  let main_cst_0 : FVec F S_ .f32 := constant S_ .f32 0x7F800000#32
  let main_v5 : FVec F S8x1x1x512 .f32 := broadcastInDim S8x1x1x512 ![] bcast_S_S8x1x1x512 main_cst_0
  let main_v6 : IVec S8x1x1x512 1 := cmpf .olt main_v4 main_v5
  let main_c_1 : IVec S_ 1 := constantI S_ 1 1#1
  let main_v7 : IVec S_ 1 := (fun x v => Host.reduce IntOp.andi x v reducesTo_S8x1x1x512_S_d0_1_2_3 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S8x512x1024 : Shape := ⟨3, ![8, 512, 1024]⟩
abbrev S8x1x1x512 : Shape := ⟨4, ![8, 1, 1, 512]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S1x512x128 : Shape := ⟨3, ![1, 512, 128]⟩
abbrev S1x1x1x512 : Shape := ⟨4, ![1, 1, 1, 512]⟩
abbrev S512x128 : Shape := ⟨2, ![512, 128]⟩
abbrev S512 : Shape := ⟨1, ![512]⟩
abbrev S512x64 : Shape := ⟨2, ![512, 64]⟩
abbrev S512x512 : Shape := ⟨2, ![512, 512]⟩
abbrev S1x512 : Shape := ⟨2, ![1, 512]⟩
abbrev S512x1 : Shape := ⟨2, ![512, 1]⟩

abbrev nBuf : Space → Nat
  | .hbm => 25
  | .vmem => 24
  | .smem => 0
  | _ => 0

abbrev bufTy : (tb : Table) → Fin (tcTables nBuf tb) → BufTy
  | .hbm, ⟨0, _⟩ => ⟨S8x512x1024, .f32⟩
  | .hbm, ⟨1, _⟩ => ⟨S8x1x1x512, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S4096x1024, .f32⟩
  | .hbm, ⟨9, _⟩ => ⟨S1024x1024, .f32⟩
  | .hbm, ⟨10, _⟩ => ⟨S1024x1024, .bf16⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S8x512x1024, .f32⟩
  | .hbm, ⟨22, _⟩ => ⟨S8x512x1024, .f32⟩
  | .hbm, ⟨23, _⟩ => ⟨S8x512x1024, .f32⟩
  | .hbm, ⟨24, _⟩ => ⟨S8x512x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x512x128, .f32⟩
  | .local _ .vmem, ⟨15, _⟩ => ⟨S1x512x128, .f32⟩
  | .local _ .vmem, ⟨16, _⟩ => ⟨S1x512x128, .f32⟩
  | .local _ .vmem, ⟨17, _⟩ => ⟨S1x512x128, .f32⟩
  | .local _ .vmem, ⟨18, _⟩ => ⟨S1x512x128, .f32⟩
  | .local _ .vmem, ⟨19, _⟩ => ⟨S1x512x128, .f32⟩
  | .local _ .vmem, ⟨20, _⟩ => ⟨S1x1x1x512, .f32⟩
  | .local _ .vmem, ⟨21, _⟩ => ⟨S1x1x1x512, .f32⟩
  | .local _ .vmem, ⟨22, _⟩ => ⟨S1x512x128, .f32⟩
  | .local _ .vmem, ⟨23, _⟩ => ⟨S1x512x128, .f32⟩
  | _, _ => ⟨S8x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S8x512x1024_S4096x1024 : S8x512x1024.ShapeCasts S4096x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S8x512x1024 : S4096x1024.ShapeCasts S8x512x1024
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x1x1x512_S1x1x1x512_0_0_0_0 : ∀ a, (![0, 0, 0, 0] : Fin 4 → Nat) a + S1x1x1x512.size a ≤ S1x1x1x512.size a
  h_S1x1x1x512 : 0 < S1x1x1x512.numel
  shapeCasts_S1x1x1x512_S512 : S1x1x1x512.ShapeCasts S512
  slices_S512x128_o0_0_S512x64 : S512x128.Slices ![0, 0] S512x64
  shapeCasts_S512_S1x512 : S512.ShapeCasts S1x512
  broadcasts_S1x512_S512x512 : S1x512.Broadcasts S512x512
  reduces_S512x512_S512 : S512x512.Reduces [1] S512
  shapeCasts_S512_S512x1 : S512.ShapeCasts S512x1
  broadcasts_S512x1_S512x512 : S512x1.Broadcasts S512x512
  slices_S512x128_o0_64_S512x64 : S512x128.Slices ![0, 64] S512x64
  concatenates_S512x64_S512x64_S512x128_d1 : Shape.Concatenates [S512x64, S512x64] S512x128 1
  shapeCasts_S512x128_S1x512x128 : S512x128.ShapeCasts S1x512x128
  dot_S512x1024_S1024x1024_S512x1024_1_0_0_1_n_n_wf : DotDims.WF S512x1024 S1024x1024 S512x1024 [1] [0] [0] [1] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S4096x1024.size a
  hwx0_7 : ∀ i : grid0.Coords, EltTy.bits .f32 = 32 ∨ (Rect.block (s := S4096x1024) S512x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S4096x1024.size a
  hwx0_8 : ∀ i : grid0.Coords, EltTy.bits .f32 = 32 ∨ (Rect.block (s := S4096x1024) S512x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S4096x1024.size a
  hwx0_9 : ∀ i : grid0.Coords, EltTy.bits .f32 = 32 ∨ (Rect.block (s := S4096x1024) S512x1024.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S8x512x1024.size a
  hwx1_0 : ∀ i : grid1.Coords, EltTy.bits .f32 = 32 ∨ (Rect.block (s := S8x512x1024) S1x512x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x128.size a ≤ S8x512x1024.size a
  hwx1_1 : ∀ i : grid1.Coords, EltTy.bits .f32 = 32 ∨ (Rect.block (s := S8x512x1024) S1x512x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x128.size a ≤ S8x512x1024.size a
  hwx1_2 : ∀ i : grid1.Coords, EltTy.bits .f32 = 32 ∨ (Rect.block (s := S8x512x1024) S1x512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x1x512.size a ≤ S8x1x1x512.size a
  hwx1_3 : ∀ i : grid1.Coords, EltTy.bits .f32 = 32 ∨ (Rect.block (s := S8x1x1x512) S1x1x1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x128.size a ≤ S8x512x1024.size a
  hwx1_4 : ∀ i : grid1.Coords, EltTy.bits .f32 = 32 ∨ (Rect.block (s := S8x512x1024) S1x512x128.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v10_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v11) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x1x1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x512x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x512x1024 : Shape := ⟨3, ![8, 512, 1024]⟩
abbrev S8x1x1x512 : Shape := ⟨4, ![8, 1, 1, 512]⟩
abbrev S1024x1024 : Shape := ⟨2, ![1024, 1024]⟩
abbrev S1024 : Shape := ⟨1, ![1024]⟩
abbrev S1x1x1024 : Shape := ⟨3, ![1, 1, 1024]⟩
abbrev S8x512x16x64 : Shape := ⟨4, ![8, 512, 16, 64]⟩
abbrev S8x16x512x64 : Shape := ⟨4, ![8, 16, 512, 64]⟩
abbrev S8x16x512x512 : Shape := ⟨4, ![8, 16, 512, 512]⟩
abbrev S_ : Shape := ⟨0, ![]⟩
abbrev S8x16x512 : Shape := ⟨3, ![8, 16, 512]⟩
abbrev S8x16x512x1 : Shape := ⟨4, ![8, 16, 512, 1]⟩

abbrev nBuf : Space → Nat
  | .hbm => 49
  | .vmem => 0
  | .smem => 0
  | _ => 0

abbrev bufTy : (tb : Table) → Fin (tcTables nBuf tb) → BufTy
  | .hbm, ⟨0, _⟩ => ⟨S8x512x1024, .f32⟩
  | .hbm, ⟨1, _⟩ => ⟨S8x1x1x512, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S8x512x1024, .f32⟩
  | .hbm, ⟨9, _⟩ => ⟨S1x1x1024, .f32⟩
  | .hbm, ⟨10, _⟩ => ⟨S8x512x1024, .f32⟩
  | .hbm, ⟨11, _⟩ => ⟨S8x512x1024, .f32⟩
  | .hbm, ⟨12, _⟩ => ⟨S8x512x16x64, .f32⟩
  | .hbm, ⟨13, _⟩ => ⟨S8x16x512x64, .f32⟩
  | .hbm, ⟨14, _⟩ => ⟨S8x512x1024, .f32⟩
  | .hbm, ⟨15, _⟩ => ⟨S1x1x1024, .f32⟩
  | .hbm, ⟨16, _⟩ => ⟨S8x512x1024, .f32⟩
  | .hbm, ⟨17, _⟩ => ⟨S8x512x1024, .f32⟩
  | .hbm, ⟨18, _⟩ => ⟨S8x512x16x64, .f32⟩
  | .hbm, ⟨19, _⟩ => ⟨S8x16x512x64, .f32⟩
  | .hbm, ⟨20, _⟩ => ⟨S8x512x1024, .f32⟩
  | .hbm, ⟨21, _⟩ => ⟨S1x1x1024, .f32⟩
  | .hbm, ⟨22, _⟩ => ⟨S8x512x1024, .f32⟩
  | .hbm, ⟨23, _⟩ => ⟨S8x512x1024, .f32⟩
  | .hbm, ⟨24, _⟩ => ⟨S8x512x16x64, .f32⟩
  | .hbm, ⟨25, _⟩ => ⟨S8x16x512x64, .f32⟩
  | .hbm, ⟨26, _⟩ => ⟨S8x16x512x512, .f32⟩
  | .hbm, ⟨27, _⟩ => ⟨S_, .f32⟩
  | .hbm, ⟨28, _⟩ => ⟨S8x16x512x512, .f32⟩
  | .hbm, ⟨29, _⟩ => ⟨S8x16x512x512, .f32⟩
  | .hbm, ⟨30, _⟩ => ⟨S8x16x512x512, .f32⟩
  | .hbm, ⟨31, _⟩ => ⟨S8x16x512x512, .f32⟩
  | .hbm, ⟨32, _⟩ => ⟨S_, .f32⟩
  | .hbm, ⟨33, _⟩ => ⟨S8x16x512, .f32⟩
  | .hbm, ⟨34, _⟩ => ⟨S_, .f32⟩
  | .hbm, ⟨35, _⟩ => ⟨S8x16x512, .f32⟩
  | .hbm, ⟨36, _⟩ => ⟨S8x16x512, .f32⟩
  | .hbm, ⟨37, _⟩ => ⟨S8x16x512x1, .f32⟩
  | .hbm, ⟨38, _⟩ => ⟨S8x16x512x512, .f32⟩
  | .hbm, ⟨39, _⟩ => ⟨S8x16x512x512, .f32⟩
  | .hbm, ⟨40, _⟩ => ⟨S8x16x512x512, .f32⟩
  | .hbm, ⟨41, _⟩ => ⟨S_, .f32⟩
  | .hbm, ⟨42, _⟩ => ⟨S8x16x512, .f32⟩
  | .hbm, ⟨43, _⟩ => ⟨S8x16x512x1, .f32⟩
  | .hbm, ⟨44, _⟩ => ⟨S8x16x512x512, .f32⟩
  | .hbm, ⟨45, _⟩ => ⟨S8x16x512x512, .f32⟩
  | .hbm, ⟨46, _⟩ => ⟨S8x16x512x64, .f32⟩
  | .hbm, ⟨47, _⟩ => ⟨S8x512x16x64, .f32⟩
  | .hbm, ⟨48, _⟩ => ⟨S8x512x1024, .f32⟩
  | _, _ => ⟨S8x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_cst_1 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x512x1024_0_1_2 : S1x1x1024.BroadcastsInDim S8x512x1024 (![0, 1, 2] : Fin 3 → Fin S8x512x1024.rank)
  shapeCasts_S8x512x1024_S8x512x16x64 : S8x512x1024.ShapeCasts S8x512x16x64
  transposes_S8x512x16x64_S8x16x512x64_0_2_1_3 : S8x512x16x64.Transposes [0, 2, 1, 3] S8x16x512x64
  bcast_S_S8x16x512x512 : S_.BroadcastsInDim S8x16x512x512 (![] : Fin 0 → Fin S8x16x512x512.rank)
  bcast_S8x1x1x512_S8x16x512x512_0_1_2_3 : S8x1x1x512.BroadcastsInDim S8x16x512x512 (![0, 1, 2, 3] : Fin 4 → Fin S8x16x512x512.rank)
  reducesTo_S8x16x512x512_S8x16x512_d3 : S8x16x512x512.ReducesTo [3] S8x16x512
  h_S_ : 0 < S_.numel
  bcast_S_S8x16x512 : S_.BroadcastsInDim S8x16x512 (![] : Fin 0 → Fin S8x16x512.rank)
  bcast_S8x16x512_S8x16x512x1_0_1_2 : S8x16x512.BroadcastsInDim S8x16x512x1 (![0, 1, 2] : Fin 3 → Fin S8x16x512x1.rank)
  bcast_S8x16x512x1_S8x16x512x512_0_1_2_3 : S8x16x512x1.BroadcastsInDim S8x16x512x512 (![0, 1, 2, 3] : Fin 4 → Fin S8x16x512x512.rank)
  transposes_S8x16x512x64_S8x512x16x64_0_2_1_3 : S8x16x512x64.Transposes [0, 2, 1, 3] S8x512x16x64
  shapeCasts_S8x512x16x64_S8x512x1024 : S8x512x16x64.ShapeCasts S8x512x1024
  dot_S8x512x1024_S1024x1024_S8x512x1024_2_1_01_0_n_n_wf : DotDims.WF S8x512x1024 S1024x1024 S8x512x1024 [2] [1] [0, 1] [0] [] []
  dot_S8x16x512x64_S8x16x512x64_S8x16x512x512_3_3_2_2_01_01_wf : DotDims.WF S8x16x512x64 S8x16x512x64 S8x16x512x512 [3] [3] [2] [2] [0, 1] [0, 1]
  dot_S8x16x512x512_S8x16x512x64_S8x16x512x64_3_2_2_3_01_01_wf : DotDims.WF S8x16x512x512 S8x16x512x64 S8x16x512x64 [3] [2] [2] [3] [0, 1] [0, 1]

variable [Facts₀]

def dot_S8x512x1024_S1024x1024_S8x512x1024_2_1_01_0_n_n : DotDims S8x512x1024 S1024x1024 S8x512x1024 where
  lhsContracting := [2]
  rhsContracting := [1]
  lhsNonContracting := [0, 1]
  rhsNonContracting := [0]
  lhsBatch := []
  rhsBatch := []
  wf := dot_S8x512x1024_S1024x1024_S8x512x1024_2_1_01_0_n_n_wf
def dot_S8x16x512x64_S8x16x512x64_S8x16x512x512_3_3_2_2_01_01 : DotDims S8x16x512x64 S8x16x512x64 S8x16x512x512 where
  lhsContracting := [3]
  rhsContracting := [3]
  lhsNonContracting := [2]
  rhsNonContracting := [2]
  lhsBatch := [0, 1]
  rhsBatch := [0, 1]
  wf := dot_S8x16x512x64_S8x16x512x64_S8x16x512x512_3_3_2_2_01_01_wf
def dot_S8x16x512x512_S8x16x512x64_S8x16x512x64_3_2_2_3_01_01 : DotDims S8x16x512x512 S8x16x512x64 S8x16x512x64 where
  lhsContracting := [3]
  rhsContracting := [2]
  lhsNonContracting := [2]
  rhsNonContracting := [3]
  lhsBatch := [0, 1]
  rhsBatch := [0, 1]
  wf := dot_S8x16x512x512_S8x16x512x64_S8x16x512x64_3_2_2_3_01_01_wf

class Facts : Prop extends Facts₀ where

variable [Facts]
-- ==== Proof.KernelRun.lean ====
/-
  The idealized kernel's run with its result NAMED.  @main is four segments — the host operations that lay the arguments
  out for the first call, the call that computes the three linear layers, the host reshapes of their results, the call that
  computes attention — and every weakly fair execution ends with each unscoped buffer at the contents the segments leave,
  folded from the launch memory.  The frame claim keeps of that only "the arguments are unchanged"; here the same launch
  keeps, in addition, the result buffer at the last boundary's contents `W4`, which the value proof then reads.
-/
import proofs.«114286_j6004364280065_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_named : θ_run defs (onTc (τ := τ) (main (F := F))) ⟨m, fun _ => 0, ρ⟩ (fun r => ∀ c : Dev nD,
      r.2.mem ((c.tc : Thread nD τ).loc main_v14) = W4 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v14 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result buffer is the attention call's output array: what its write-backs leave. -/
theorem W4_result (c : Dev nD) : W4 m ρ c (Proc.devRef .tc main_v14) = (dat1 (V3 m ρ) c).arrAt 4 cfg1.N :=
  W4_arr m ρ c 4

end Cert.KernelIdeal.RunValue

end
-- ==== Proof.HostGlue.lean ====
/-
  The host operations around the two calls, read at an index.

  Before the first call the activations `[8, 512, 1024]` are flattened to `[4096, 1024]` (row `512·b + s`), each weight
  matrix is transposed (and narrowed, which changes no value here) and each bias is viewed as one row `[1, 1024]`.  Between the
  calls the three `[4096, 1024]` results are viewed as `[8, 512, 1024]` again.  The mask is never written: the second call
  finds it as launched.
-/
import proofs.«114286_j6004364280065_2_alg».proof.Proof.Gen.KernelIdeal.Frame
import Idealize.ShloMosaic.Lib.Pipeline.Value
import Idealize.ShloMosaic.Lib.ValueIdx
import Idealize.ShloMosaic.Lib.StableHlo.Run

set_option maxRecDepth 16384

noncomputable section

namespace Cert.KernelIdeal.GlueValue

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## Before the first call -/

theorem V1_x : @Eq (S4096x1024.Idx → EReal) (V1 (F := Ideal) m ρ c main_v0)
    (shapeCast S4096x1024 (m ((c : Thread nD τ).loc main_arg0)) shapeCasts_S8x512x1024_S4096x1024) := by
  show StableHlo.after hostOps0 (W0 m ρ c) (Proc.devRef .tc main_v0) = _
  after_results
  rfl

/-- Row `512·b + s` of the flattened activations is position `s` of batch `b`. -/
theorem V1_x_apply (b : Fin 8) (s : Fin 512) (j : Fin 1024) (r : Fin 4096) (hr : r.val = 512 * b.val + s.val) :
    (V1 (F := Ideal) m ρ c main_v0 : S4096x1024.Idx → EReal) (ix2 r j) = m ((c : Thread nD τ).loc main_arg0) (ix3 b s j) :=
  (congrFun (V1_x m ρ c) (ix2 r j)).trans (shapeCast_apply _ _ _ _ (by
    show (S8x512x1024.rowMajor (ix3 b s j)).val = (S4096x1024.rowMajor (ix2 r j)).val
    rw [Shape.rowMajor_val_three, Shape.rowMajor_val_two]
    show (b.val * 512 + s.val) * 1024 + j.val = r.val * 1024 + j.val
    omega))

/-- A weight matrix as the first call finds it: transposed (the narrowing to 16 bits changes no value here). -/
theorem V1_wq : @Eq (S1024x1024.Idx → EReal) (V1 (F := Ideal) m ρ c main_v2)
    (truncf (F := Ideal) .bf16 (transpose S1024x1024 [1, 0] (m ((c : Thread nD τ).loc main_arg2)) transposes_S1024x1024_S1024x1024_1_0) bitsLt_bf16_f32) := by
  show StableHlo.after hostOps0 (W0 m ρ c) (Proc.devRef .tc main_v2) = _
  after_results
theorem V1_wk : @Eq (S1024x1024.Idx → EReal) (V1 (F := Ideal) m ρ c main_v4)
    (truncf (F := Ideal) .bf16 (transpose S1024x1024 [1, 0] (m ((c : Thread nD τ).loc main_arg4)) transposes_S1024x1024_S1024x1024_1_0) bitsLt_bf16_f32) := by
  show StableHlo.after hostOps0 (W0 m ρ c) (Proc.devRef .tc main_v4) = _
  after_results
theorem V1_wv : @Eq (S1024x1024.Idx → EReal) (V1 (F := Ideal) m ρ c main_v6)
    (truncf (F := Ideal) .bf16 (transpose S1024x1024 [1, 0] (m ((c : Thread nD τ).loc main_arg6)) transposes_S1024x1024_S1024x1024_1_0) bitsLt_bf16_f32) := by
  show StableHlo.after hostOps0 (W0 m ρ c) (Proc.devRef .tc main_v6) = _
  after_results

/-- The transposed matrix at `(j, e)` is the matrix at `(e, j)`. -/
theorem transposed_apply (W : S1024x1024.Idx → EReal) (j e : Fin 1024) :
    truncf (F := Ideal) .bf16 (transpose S1024x1024 [1, 0] W transposes_S1024x1024_S1024x1024_1_0) bitsLt_bf16_f32 (ix2 j e) = W (ix2 e j) :=
  transpose_apply _ _ _ (ix2 j e) (ix2 e j) (fun b => by match b with | ⟨0, _⟩ => rfl | ⟨1, _⟩ => rfl)

theorem V1_wq_apply (j e : Fin 1024) :
    (V1 (F := Ideal) m ρ c main_v2 : S1024x1024.Idx → EReal) (ix2 j e) = m ((c : Thread nD τ).loc main_arg2) (ix2 e j) :=
  (congrFun (V1_wq m ρ c) (ix2 j e)).trans (transposed_apply _ j e)
theorem V1_wk_apply (j e : Fin 1024) :
    (V1 (F := Ideal) m ρ c main_v4 : S1024x1024.Idx → EReal) (ix2 j e) = m ((c : Thread nD τ).loc main_arg4) (ix2 e j) :=
  (congrFun (V1_wk m ρ c) (ix2 j e)).trans (transposed_apply _ j e)
theorem V1_wv_apply (j e : Fin 1024) :
    (V1 (F := Ideal) m ρ c main_v6 : S1024x1024.Idx → EReal) (ix2 j e) = m ((c : Thread nD τ).loc main_arg6) (ix2 e j) :=
  (congrFun (V1_wv m ρ c) (ix2 j e)).trans (transposed_apply _ j e)

/-- A bias viewed as one row. -/
theorem row_apply (β : S1024.Idx → EReal) (e : Fin 1024) :
    shapeCast S1x1024 β shapeCasts_S1024_S1x1024 (ix2 0 e) = β (ix1 e) :=
  shapeCast_apply _ _ _ _ (by
    show (S1024.rowMajor (ix1 e)).val = (S1x1024.rowMajor (ix2 0 e)).val
    rw [Shape.rowMajor_val_one, Shape.rowMajor_val_two]
    show e.val = 0 * 1024 + e.val
    omega)

theorem V1_bq : @Eq (S1x1024.Idx → EReal) (V1 (F := Ideal) m ρ c main_v7)
    (shapeCast S1x1024 (m ((c : Thread nD τ).loc main_arg3)) shapeCasts_S1024_S1x1024) := by
  show StableHlo.after hostOps0 (W0 m ρ c) (Proc.devRef .tc main_v7) = _
  after_results
  rfl
theorem V1_bk : @Eq (S1x1024.Idx → EReal) (V1 (F := Ideal) m ρ c main_v8)
    (shapeCast S1x1024 (m ((c : Thread nD τ).loc main_arg5)) shapeCasts_S1024_S1x1024) := by
  show StableHlo.after hostOps0 (W0 m ρ c) (Proc.devRef .tc main_v8) = _
  after_results
  rfl
theorem V1_bv : @Eq (S1x1024.Idx → EReal) (V1 (F := Ideal) m ρ c main_v9)
    (shapeCast S1x1024 (m ((c : Thread nD τ).loc main_arg7)) shapeCasts_S1024_S1x1024) := by
  show StableHlo.after hostOps0 (W0 m ρ c) (Proc.devRef .tc main_v9) = _
  after_results
  rfl

theorem V1_bq_apply (e : Fin 1024) :
    (V1 (F := Ideal) m ρ c main_v7 : S1x1024.Idx → EReal) (ix2 0 e) = m ((c : Thread nD τ).loc main_arg3) (ix1 e) :=
  (congrFun (V1_bq m ρ c) (ix2 0 e)).trans (row_apply _ e)
theorem V1_bk_apply (e : Fin 1024) :
    (V1 (F := Ideal) m ρ c main_v8 : S1x1024.Idx → EReal) (ix2 0 e) = m ((c : Thread nD τ).loc main_arg5) (ix1 e) :=
  (congrFun (V1_bk m ρ c) (ix2 0 e)).trans (row_apply _ e)
theorem V1_bv_apply (e : Fin 1024) :
    (V1 (F := Ideal) m ρ c main_v9 : S1x1024.Idx → EReal) (ix2 0 e) = m ((c : Thread nD τ).loc main_arg7) (ix1 e) :=
  (congrFun (V1_bv m ρ c) (ix2 0 e)).trans (row_apply _ e)

/-! ## Between the calls -/

/-- A `[4096, 1024]` array viewed as `[8, 512, 1024]`: position `s` of batch `b` is row `512·b + s`. -/
theorem unflatten_apply (Y : S4096x1024.Idx → EReal) (b : Fin 8) (s : Fin 512) (e : Fin 1024) (r : Fin 4096)
    (hr : r.val = 512 * b.val + s.val) :
    shapeCast S8x512x1024 Y shapeCasts_S4096x1024_S8x512x1024 (ix3 b s e) = Y (ix2 r e) :=
  shapeCast_apply _ _ _ _ (by
    show (S4096x1024.rowMajor (ix2 r e)).val = (S8x512x1024.rowMajor (ix3 b s e)).val
    rw [Shape.rowMajor_val_three, Shape.rowMajor_val_two]
    show r.val * 1024 + e.val = (b.val * 512 + s.val) * 1024 + e.val
    omega)

theorem V3_q : @Eq (S8x512x1024.Idx → EReal) (V3 (F := Ideal) m ρ c main_v11)
    (shapeCast S8x512x1024 ((dat0 (V1 m ρ) c).arrAt 7 cfg0.N) shapeCasts_S4096x1024_S8x512x1024) := by
  show StableHlo.after hostOps1 (W2 m ρ c) (Proc.devRef .tc main_v11) = _
  after_results
  rw [show W2 m ρ c (Proc.devRef .tc main_v10_0) = _ from W2_arr m ρ c 7]
  rfl
theorem V3_k : @Eq (S8x512x1024.Idx → EReal) (V3 (F := Ideal) m ρ c main_v12)
    (shapeCast S8x512x1024 ((dat0 (V1 m ρ) c).arrAt 8 cfg0.N) shapeCasts_S4096x1024_S8x512x1024) := by
  show StableHlo.after hostOps1 (W2 m ρ c) (Proc.devRef .tc main_v12) = _
  after_results
  rw [show W2 m ρ c (Proc.devRef .tc main_v10_1) = _ from W2_arr m ρ c 8]
  rfl
theorem V3_v : @Eq (S8x512x1024.Idx → EReal) (V3 (F := Ideal) m ρ c main_v13)
    (shapeCast S8x512x1024 ((dat0 (V1 m ρ) c).arrAt 9 cfg0.N) shapeCasts_S4096x1024_S8x512x1024) := by
  show StableHlo.after hostOps1 (W2 m ρ c) (Proc.devRef .tc main_v13) = _
  after_results
  rw [show W2 m ρ c (Proc.devRef .tc main_v10_2) = _ from W2_arr m ρ c 9]
  rfl

/-- The second call finds the mask as launched: nothing before it writes the mask's buffer. -/
theorem V3_mask : @Eq (S8x1x1x512.Idx → EReal) (V3 (F := Ideal) m ρ c main_arg1) (m ((c : Thread nD τ).loc main_arg1)) :=
  (((W4_arr m ρ c 3).trans (((dat1 (V3 m ρ) c).arrAt_in 3 rfl _).trans (A_eq1 (V3 m ρ) c 3))).symm).trans (W4_main_arg1 m ρ c)

end Cert.KernelIdeal.GlueValue

end
-- ==== Proof.AttnSpec.lean ====
/-
  Scaled dot-product self-attention on the extended reals, as ONE function of the argument arrays.

  Shapes: 8 batches, 512 positions, model width 1024 = 16 heads of width 64.  Lane `64·h + d` of the model axis is
  coordinate `d` of head `h`.  With
    proj W β [b, s, e]   = Σ_{j < 1024} x[b, s, j] · W[e, j]  +  β[e]                 (a linear layer, `x · Wᵀ + β`)
    score [b, h, s, t]   = (Σ_{d < 64} q[b, s, 64h+d] · k[b, t, 64h+d]) · c + mask[b, t]
    rowMax r             = the maximum of r over the 512 key positions, folded from the word that denotes -∞
    weight r t           = exp (r t - rowMax r)
    prob r t             = weight r t / Σ_u weight r u
    ctx [b, s, h, d]     = Σ_{t < 512} prob (score [b, h, s, ·]) t · v[b, t, 64h+d]
  the result at `[b, s, e]` is `ctx [b, s, e / 64, e % 64]` with `q, k, v` the three projections of `x`.
  Every sum is a finite sum in the commutative monoid of extended reals, so no statement here depends on the order or
  the grouping in which a program accumulates it; the scale `c` and the -∞ word are kept as the bit patterns both
  programs print, and are never evaluated.
-/
import Idealize.ShloMosaic.PureOps.Ideal
import Idealize.ShloMosaic.Lib.ValueIdx
import Mathlib.Data.Finset.Fold

noncomputable section

namespace Cert.Attn

open Idealize.ShloMosaic Idealize.ShloMosaic.ValueIdx

/-- The activations `[8, 512, 1024]`, the additive mask `[8, 1, 1, 512]`, a weight matrix and a bias. -/
abbrev SX : Shape := ⟨3, ![8, 512, 1024]⟩
abbrev SM : Shape := ⟨4, ![8, 1, 1, 512]⟩
abbrev SW : Shape := ⟨2, ![1024, 1024]⟩
abbrev SB : Shape := ⟨1, ![1024]⟩

/-- The scale `1/√64 = 0.125` and `-∞`, as the f32 words both programs carry. -/
abbrev scale : EReal := Ideal.ofBits .f32 0x3E000000#32
abbrev negInf : EReal := Ideal.ofBits .f32 0xFF800000#32

/-- Lane `64·h + d` of the model axis: coordinate `d` of head `h`. -/
def lane (h : Fin 16) (d : Fin 64) : Fin 1024 := ⟨64 * h.val + d.val, by omega⟩
/-- The head a lane belongs to, and its coordinate inside the head. -/
def headOf (e : Fin 1024) : Fin 16 := ⟨e.val / 64, by omega⟩
def offOf (e : Fin 1024) : Fin 64 := ⟨e.val % 64, Nat.mod_lt _ (by decide)⟩

theorem lane_val (h : Fin 16) (d : Fin 64) : (lane h d).val = 64 * h.val + d.val := rfl
theorem lane_headOf_offOf (e : Fin 1024) : lane (headOf e) (offOf e) = e :=
  Fin.ext (by show 64 * (e.val / 64) + e.val % 64 = e.val; omega)

/-- A linear layer `x · Wᵀ + β` at `[b, s, e]`. -/
def proj (x : SX.Idx → EReal) (W : SW.Idx → EReal) (β : SB.Idx → EReal) (b : Fin 8) (s : Fin 512) (e : Fin 1024) : EReal :=
  (∑ j : Fin 1024, x (ix3 b s j) * W (ix2 e j)) + β (ix1 e)

section Heads

variable (q k v : Fin 8 → Fin 512 → Fin 1024 → EReal) (mask : Fin 8 → Fin 512 → EReal)

/-- The scaled, masked score of query position `s` against key position `t` in head `h` of batch `b`. -/
def score (b : Fin 8) (h : Fin 16) (s t : Fin 512) : EReal :=
  (∑ d : Fin 64, q b s (lane h d) * k b t (lane h d)) * scale + mask b t

/-- A row's maximum over the key positions, folded from `-∞`. -/
def rowMax (r : Fin 512 → EReal) : EReal := (Finset.univ : Finset (Fin 512)).fold max negInf r
/-- The unnormalised softmax weight, and the softmax. -/
def weight (r : Fin 512 → EReal) (t : Fin 512) : EReal := Ideal.exp (r t - rowMax r)
def prob (r : Fin 512 → EReal) (t : Fin 512) : EReal := Ideal.div (weight r t) (∑ u : Fin 512, weight r u)

/-- The attention output of head `h` at query position `s`, coordinate `d`. -/
def ctx (b : Fin 8) (s : Fin 512) (h : Fin 16) (d : Fin 64) : EReal :=
  ∑ t : Fin 512, prob (score q k mask b h s) t * v b t (lane h d)

/-- The same at a lane of the model axis: the layout `[8, 512, 1024]` of the result. -/
def ctxAt (b : Fin 8) (s : Fin 512) (e : Fin 1024) : EReal := ctx q k v mask b s (headOf e) (offOf e)

end Heads

/-! ## One slab: the two heads that share a block of 128 lanes

  A block of 128 consecutive lanes of one batch holds two whole heads: lane `l` of the block is coordinate `l % 64` of
  the block's head `l / 64`.  Attention restricted to the block's own lanes is attention of those two heads. -/

section Slab

variable (qb kb vb : Fin 512 → Fin 128 → EReal) (mb : Fin 512 → EReal)

/-- Lane `64·hh + d` of a slab: coordinate `d` of the slab's head `hh`. -/
def slabLane (hh : Fin 2) (d : Fin 64) : Fin 128 := ⟨64 * hh.val + d.val, by omega⟩
def slabHead (l : Fin 128) : Fin 2 := ⟨l.val / 64, by omega⟩

/-- The score of query position `s` against key position `t` in the slab's head `hh`. -/
def slabScore (hh : Fin 2) (s t : Fin 512) : EReal :=
  (∑ d : Fin 64, qb s (slabLane hh d) * kb t (slabLane hh d)) * scale + mb t

/-- The attention output at query position `s`, lane `l` of the slab. -/
def slabCtx (s : Fin 512) (l : Fin 128) : EReal :=
  ∑ t : Fin 512, prob (slabScore qb kb mb (slabHead l) s) t * vb t l

end Slab

/-- The mask `[8, 1, 1, 512]` read at batch `b`, key position `t`. -/
def maskAt (m : SM.Idx → EReal) (b : Fin 8) (t : Fin 512) : EReal := m (ix4 b 0 0 t)

/-- Self-attention of `x` with the three linear layers `(Wq, βq)`, `(Wk, βk)`, `(Wv, βv)` and the additive mask `m`. -/
def attn (x : SX.Idx → EReal) (m : SM.Idx → EReal) (Wq : SW.Idx → EReal) (βq : SB.Idx → EReal) (Wk : SW.Idx → EReal)
    (βk : SB.Idx → EReal) (Wv : SW.Idx → EReal) (βv : SB.Idx → EReal) : SX.Idx → EReal := fun i =>
  ctxAt (proj x Wq βq) (proj x Wk βk) (proj x Wv βv) (maskAt m) (i 0) (i 1) (i 2)

/-- Folding `max` from a value never goes below it: the reference takes the row maximum once more against `-∞`. -/
theorem max_negInf_rowMax (r : Fin 512 → EReal) : max negInf (rowMax r) = rowMax r :=
  max_eq_right ((Finset.le_fold_max negInf).2 (Or.inl le_rfl))

end Cert.Attn

end
-- ==== Proof.ProjRegion.lean ====
/- The three linear layers of the kernel's first region, read as values: the body's arithmetic at an index
   (a row of the activations against a column of the weights, plus the bias), and each output array after the
   region as one function of the arrays the region finds. -/
import proofs.«114286_j6004364280065_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ProjValue

open Cert.KernelIdeal Cert.KernelIdeal.Gen Idealize.ShloMosaic Idealize.ShloMosaic.TcCoe Idealize.SL.Sem
open Idealize.ShloMosaic.ValueIdx
open Idealize.ShloMosaic.Pipeline (Dat)

/-- The contraction of the layer's product: axis 1 of the activations against axis 0 of the weights. -/
abbrev projDims := dot_S512x1024_S1024x1024_S512x1024_1_0_0_1_n_n

/-- The left operand's row is the output's row. -/
theorem lhs_row (i : S512x1024.Idx) (q : projDims.contr.Idx) : (projDims.lhsIdx i q 0).val = (i 0).val := by
  unfold DotDims.lhsIdx
  rw [dif_neg (show ¬(0 : Fin S512x1024.rank) ∈ projDims.lhsBatch by decide), dif_pos (show (0 : Fin S512x1024.rank) ∈ projDims.lhsNonContracting by decide)]
  rfl
/-- The left operand's column is the contraction index. -/
theorem lhs_col (i : S512x1024.Idx) (q : projDims.contr.Idx) : (projDims.lhsIdx i q 1).val = (q ⟨0, by decide⟩).val :=
  projDims.lhsIdx_val_of_single rfl i q
/-- The right operand's row is the contraction index. -/
theorem rhs_row (i : S512x1024.Idx) (q : projDims.contr.Idx) : (projDims.rhsIdx i q 0).val = (q ⟨0, by decide⟩).val :=
  projDims.rhsIdx_val_of_single rfl i q
/-- The right operand's column is the output's column. -/
theorem rhs_col (i : S512x1024.Idx) (q : projDims.contr.Idx) : (projDims.rhsIdx i q 1).val = (i 1).val := by
  unfold DotDims.rhsIdx
  rw [dif_neg (show ¬(1 : Fin S1024x1024.rank) ∈ projDims.rhsBatch by decide), dif_pos (show (1 : Fin S1024x1024.rank) ∈ projDims.rhsNonContracting by decide)]
  rfl

/-- The product into the zero accumulator, at row `r` and column `e`: the row of the left operand against the
    column of the right one. -/
theorem proj_matmul_apply (a : FVec Ideal S512x1024 .bf16) (w : FVec Ideal S1024x1024 .bf16) (r : Fin 512) (e : Fin 1024) :
    matmul projDims none a w (constant (F := Ideal) S512x1024 .f32 0x00000000#32) (ix2 r e)
      = ∑ j : Fin 1024, a (ix2 r j) * w (ix2 j e) := by
  refine (Ideal.matmul_constant_zero_apply projDims none a w (ix2 r e)).trans ?_
  rw [← Equiv.sum_comp (contrEquiv1 projDims 1024 rfl rfl).symm]
  refine Finset.sum_congr rfl fun k _ => ?_
  have hk := contrEquiv1_symm_val projDims 1024 rfl rfl k
  have el : projDims.lhsIdx (ix2 r e) ((contrEquiv1 projDims 1024 rfl rfl).symm k) = ix2 r k := funext fun x => Fin.ext (by
    match x with
    | ⟨0, _⟩ => exact lhs_row _ _
    | ⟨1, _⟩ => exact (lhs_col _ _).trans hk)
  have er : projDims.rhsIdx (ix2 r e) ((contrEquiv1 projDims 1024 rfl rfl).symm k) = ix2 k e := funext fun x => Fin.ext (by
    match x with
    | ⟨0, _⟩ => exact (rhs_row _ _).trans hk
    | ⟨1, _⟩ => exact rhs_col _ _)
  rw [el, er]

/-- The bias row spread over the block's rows, at row `r` and column `e`: the bias at column `e`. -/
theorem proj_bias_apply (b : FVec Ideal S1x1024 .f32) (r : Fin 512) (e : Fin 1024) :
    broadcastTo S512x1024 b broadcasts_S1x1024_S512x1024 (ix2 r e) = b (ix2 0 e) :=
  broadcastTo_apply b broadcasts_S1x1024_S512x1024 (ix2 r e) (ix2 0 e) (fun x => match x with
    | ⟨0, _⟩ => by show 0 = if (1 : Nat) = 1 then 0 else r.val; rw [if_pos rfl]
    | ⟨1, _⟩ => by show e.val = if (1024 : Nat) = 1 then 0 else e.val; rw [if_neg (by decide)])

/-- THE BODY'S ARITHMETIC AT AN INDEX, the query layer: row `r` of the block against column `e` of the weights, plus
    the bias at `e` (the rounding of the activations to bf16 is the identity on the extended reals). -/
theorem pay2_apply (x0 : Vec Ideal S512x1024 .f32) (w : Vec Ideal S1024x1024 .bf16) (b : Vec Ideal S1x1024 .f32)
    (r : Fin 512) (e : Fin 1024) :
    k0_pay2 (F := Ideal) x0 w b (ix2 r e) = (∑ j : Fin 1024, x0 (ix2 r j) * w (ix2 j e)) + b (ix2 0 e) := by
  unfold k0_pay2 k0_pay1
  simp only [shapeCast_self]
  refine (addf_apply _ _ _).trans ?_
  rw [proj_matmul_apply, proj_bias_apply]
  rfl

/-! ## From the blocks to the arrays -/

/-- A linear layer on the flattened activations: row `i 0` of `X` against column `i 1` of `WT`, plus the bias at
    column `i 1`. -/
def proj2d (X : S4096x1024.Idx → EReal) (WT : S1024x1024.Idx → EReal) (B : S1x1024.Idx → EReal) : S4096x1024.Idx → EReal :=
  fun i => (∑ j : Fin 1024, X (ix2 (i 0) j) * WT (ix2 j (i 1))) + B (ix2 0 (i 1))

theorem off_zero : (![0, 0] : Fin 2 → Nat) = fun _ => 0 := funext fun a => by fin_cases a <;> rfl

/-- The body's arithmetic at an index `y` of the block is the layer at an index `i` of the array, as soon as the
    block's row `y 0` is the array's row `i 0`, the weights' column `y 1` is column `i 1`, and so the bias. -/
theorem block_apply (X : S4096x1024.Idx → EReal) (WT : S1024x1024.Idx → EReal) (B : S1x1024.Idx → EReal)
    (x0 : Vec Ideal S512x1024 .f32) (w : Vec Ideal S1024x1024 .bf16) (b : Vec Ideal S1x1024 .f32)
    (y : S512x1024.Idx) (i : S4096x1024.Idx)
    (hx : ∀ j : Fin 1024, x0 (ix2 (n0 := 512) (n1 := 1024) (y 0) j) = X (ix2 (n0 := 4096) (n1 := 1024) (i 0) j))
    (hw : ∀ j : Fin 1024, w (ix2 (n0 := 1024) (n1 := 1024) j (y 1)) = WT (ix2 (n0 := 1024) (n1 := 1024) j (i 1)))
    (hb : b (ix2 (n0 := 1) (n1 := 1024) 0 (y 1)) = B (ix2 (n0 := 1) (n1 := 1024) 0 (i 1))) :
    k0_pay2 (F := Ideal) x0 w b y = proj2d X WT B i := by
  refine (congrArg (k0_pay2 (F := Ideal) x0 w b) (eq_ix2 (n0 := 512) (n1 := 1024) y)).trans ?_
  refine (pay2_apply x0 w b (y 0) (y 1)).trans ?_
  unfold proj2d
  rw [hb]
  exact congrArg (· + B (ix2 0 (i 1))) (Finset.sum_congr rfl fun j _ => by rw [hx j, hw j])

/-- The key and value layers' arithmetic is the query layer's, on their own weights and bias. -/
theorem pay3_eq : @k0_pay3 Ideal _ = @k0_pay2 Ideal _ := rfl
theorem pay4_eq : @k0_pay4 Ideal _ = @k0_pay2 Ideal _ := rfl

section Arrays
variable (V : (c : Dev nD) → (b : Ref sig .tc) → Buf (Elt Ideal) ((c : Thread nD τ).loc b))

/-- The printed index maps, decided over the grid's eight points: the activations' and the outputs' blocks move with
    the point along the rows, the weights and the biases are whole arrays. -/
theorem idx_facts : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- The activations' block at point `t` is rows `512 t … 512 t + 511` of the array. -/
theorem xblk_apply (c : Dev nD) (t : Fin cfg0.N) (x : S512x1024.Idx) (k : S4096x1024.Idx)
    (hk0 : (k 0).val = 512 * t.val + (x 0).val) (hk1 : (k 1).val = (x 1).val) :
    (iblk0 V c 0 t : Vec Ideal S512x1024 .f32) x = (V c main_v0 : S4096x1024.Idx → EReal) k := by
  obtain ⟨e0, e1, -⟩ := idx_facts t
  show V c main_v0 (((cfg0.win 0).blk t).view.emb x) = V c main_v0 k
  refine congrArg (V c main_v0) (funext fun a => Fin.ext ?_)
  match a with
  | ⟨0, _⟩ => show win0_0.index t (0 : Fin 2) * 512 + 1 * (x 0).val = (k 0).val; rw [e0, hk0]; omega
  | ⟨1, _⟩ => show win0_0.index t (1 : Fin 2) * 1024 + 1 * (x 1).val = (k 1).val; rw [e1, hk1]; omega

/-! ### Output window 7 -/

/-- Window 1's block at any point is its whole array. -/
theorem wblk1_apply (c : Dev nD) (t : Fin cfg0.N) (x : S1024x1024.Idx) (k : S1024x1024.Idx)
    (hk0 : (k 0).val = (x 0).val) (hk1 : (k 1).val = (x 1).val) :
    (iblk0 V c 1 t : Vec Ideal S1024x1024 .bf16) x = (V c main_v2 : S1024x1024.Idx → EReal) k := by
  have e := idx_facts t
  have e0 : win0_1.index t (0 : Fin 2) = 0 := e.2.2.1
  have e1 : win0_1.index t (1 : Fin 2) = 0 := e.2.2.2.1
  show V c main_v2 (((cfg0.win 1).blk t).view.emb x) = V c main_v2 k
  refine congrArg (V c main_v2) (funext fun a => Fin.ext ?_)
  match a with
  | ⟨0, _⟩ => show win0_1.index t (0 : Fin 2) * 1024 + 1 * (x 0).val = (k 0).val; rw [e0, hk0]; omega
  | ⟨1, _⟩ => show win0_1.index t (1 : Fin 2) * 1024 + 1 * (x 1).val = (k 1).val; rw [e1, hk1]; omega

/-- Window 2's block at any point is its whole one-row array. -/
theorem bblk2_apply (c : Dev nD) (t : Fin cfg0.N) (x : S1x1024.Idx) (k : S1x1024.Idx)
    (hk0 : (k 0).val = (x 0).val) (hk1 : (k 1).val = (x 1).val) :
    (iblk0 V c 2 t : Vec Ideal S1x1024 .f32) x = (V c main_v7 : S1x1024.Idx → EReal) k := by
  have e := idx_facts t
  have e0 : win0_2.index t (0 : Fin 2) = 0 := e.2.2.2.2.1
  have e1 : win0_2.index t (1 : Fin 2) = 0 := e.2.2.2.2.2.1
  show V c main_v7 (((cfg0.win 2).blk t).view.emb x) = V c main_v7 k
  refine congrArg (V c main_v7) (funext fun a => Fin.ext ?_)
  match a with
  | ⟨0, _⟩ => show win0_2.index t (0 : Fin 2) * 1 + 1 * (x 0).val = (k 0).val; rw [e0, hk0]; omega
  | ⟨1, _⟩ => show win0_2.index t (1 : Fin 2) * 1024 + 1 * (x 1).val = (k 1).val; rw [e1, hk1]; omega

/-- WHAT POINT `t` WRITES BACK to window 7 is block `t` of the layer of the arrays the region finds. -/
theorem flushed7_eq (c : Dev nD) (t : Fin cfg0.N) :
    (dat0 (F := Ideal) V c).flushed 7 t
      = ((cfg0.win 7).blk t).view.read (Elt Ideal) (proj2d (V c main_v0) (V c main_v2) (V c main_v7)) := by
  show (cfg0.win 7).cut (grid0.coords t) ((dat0 (F := Ideal) V c).after 7 t) = _
  rw [after0_7]
  unfold out0_7
  rw [View.canon_unit_zero off_zero]
  simp only [View.ld_unit_zero (S := S512x1024) off_zero, View.ld_unit_zero (S := S1024x1024) off_zero, View.ld_unit_zero (S := S1x1024) off_zero]
  have e := idx_facts t
  have e0 : win0_7.index t (0 : Fin 2) = t.val := e.2.2.2.2.2.2.2.2.2.2.2.2.2.2.1
  have e1 : win0_7.index t (1 : Fin 2) = 0 := e.2.2.2.2.2.2.2.2.2.2.2.2.2.2.2.1
  funext j
  refine block_apply (V c main_v0) (V c main_v2) (V c main_v7) (iblk0 V c 0 t) (iblk0 V c 1 t) (iblk0 V c 2 t)
    ((win0 7).xinj (grid0.coords t) j) (((cfg0.win 7).blk t).view.emb j) ?_ ?_ ?_
  · intro j'
    refine xblk_apply V c t _ _ ?_ ?_
    · show win0_7.index t (0 : Fin 2) * 512 + 1 * (j 0).val = 512 * t.val + (j 0).val
      rw [e0]; omega
    · rfl
  · intro j'
    refine wblk1_apply V c t _ _ ?_ ?_
    · rfl
    · show win0_7.index t (1 : Fin 2) * 1024 + 1 * (j 1).val = (j 1).val
      rw [e1]; omega
  · refine bblk2_apply V c t _ _ ?_ ?_
    · rfl
    · show win0_7.index t (1 : Fin 2) * 1024 + 1 * (j 1).val = (j 1).val
      rw [e1]; omega

/-- An index of the array is in point `t`'s block iff each coordinate is in the block's range on its axis. -/
theorem mem_blk7 (t : Fin cfg0.N) (i : S4096x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v10_0).slice (win0_7.rect t)).set ↔ _
  rw [View.set_slice_whole, Rect.mem_set_unit]
  exact Iff.rfl

/-- Row `r` of the array is in the block of point `r / 512`. -/
theorem cover7 (i : S4096x1024.Idx) :
    ∃ t : Fin cfg0.N, (cfg0.win 7).flush t = true ∧ i ∈ ((cfg0.win 7).blk t).view.set := by
  have hi0 : (i 0).val < 4096 := (i 0).isLt
  have hi1 : (i 1).val < 1024 := (i 1).isLt
  have hN : cfg0.N = 8 := N_0
  let t : Fin cfg0.N := ⟨(i 0).val / 512, by rw [hN]; omega⟩
  have e := idx_facts t
  have e0 : win0_7.index t (0 : Fin 2) = (i 0).val / 512 := e.2.2.2.2.2.2.2.2.2.2.2.2.2.2.1
  have e1 : win0_7.index t (1 : Fin 2) = 0 := e.2.2.2.2.2.2.2.2.2.2.2.2.2.2.2.1
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; rw [e0]; omega
  | ⟨1, _⟩ => show win0_7.index t (1 : Fin 2) * 1024 ≤ (i 1).val ∧ (i 1).val < win0_7.index t (1 : Fin 2) * 1024 + 1024; rw [e1]; omega

/-- THE ARRAY after the region: the layer of the arrays the region finds. -/
theorem q_array (c : Dev nD) :
    (dat0 (F := Ideal) V c).arrAt 7 cfg0.N = proj2d (V c main_v0) (V c main_v2) (V c main_v7) :=
  (dat0 (F := Ideal) V c).arrAt_eq_of_cover 7 (proj2d (V c main_v0) (V c main_v2) (V c main_v7))
    (fun t _ => flushed7_eq V c t) (cover7)

/-! ### Output window 8 -/

/-- Window 3's block at any point is its whole array. -/
theorem wblk3_apply (c : Dev nD) (t : Fin cfg0.N) (x : S1024x1024.Idx) (k : S1024x1024.Idx)
    (hk0 : (k 0).val = (x 0).val) (hk1 : (k 1).val = (x 1).val) :
    (iblk0 V c 3 t : Vec Ideal S1024x1024 .bf16) x = (V c main_v4 : S1024x1024.Idx → EReal) k := by
  have e := idx_facts t
  have e0 : win0_3.index t (0 : Fin 2) = 0 := e.2.2.2.2.2.2.1
  have e1 : win0_3.index t (1 : Fin 2) = 0 := e.2.2.2.2.2.2.2.1
  show V c main_v4 (((cfg0.win 3).blk t).view.emb x) = V c main_v4 k
  refine congrArg (V c main_v4) (funext fun a => Fin.ext ?_)
  match a with
  | ⟨0, _⟩ => show win0_3.index t (0 : Fin 2) * 1024 + 1 * (x 0).val = (k 0).val; rw [e0, hk0]; omega
  | ⟨1, _⟩ => show win0_3.index t (1 : Fin 2) * 1024 + 1 * (x 1).val = (k 1).val; rw [e1, hk1]; omega

/-- Window 4's block at any point is its whole one-row array. -/
theorem bblk4_apply (c : Dev nD) (t : Fin cfg0.N) (x : S1x1024.Idx) (k : S1x1024.Idx)
    (hk0 : (k 0).val = (x 0).val) (hk1 : (k 1).val = (x 1).val) :
    (iblk0 V c 4 t : Vec Ideal S1x1024 .f32) x = (V c main_v8 : S1x1024.Idx → EReal) k := by
  have e := idx_facts t
  have e0 : win0_4.index t (0 : Fin 2) = 0 := e.2.2.2.2.2.2.2.2.1
  have e1 : win0_4.index t (1 : Fin 2) = 0 := e.2.2.2.2.2.2.2.2.2.1
  show V c main_v8 (((cfg0.win 4).blk t).view.emb x) = V c main_v8 k
  refine congrArg (V c main_v8) (funext fun a => Fin.ext ?_)
  match a with
  | ⟨0, _⟩ => show win0_4.index t (0 : Fin 2) * 1 + 1 * (x 0).val = (k 0).val; rw [e0, hk0]; omega
  | ⟨1, _⟩ => show win0_4.index t (1 : Fin 2) * 1024 + 1 * (x 1).val = (k 1).val; rw [e1, hk1]; omega

/-- WHAT POINT `t` WRITES BACK to window 8 is block `t` of the layer of the arrays the region finds. -/
theorem flushed8_eq (c : Dev nD) (t : Fin cfg0.N) :
    (dat0 (F := Ideal) V c).flushed 8 t
      = ((cfg0.win 8).blk t).view.read (Elt Ideal) (proj2d (V c main_v0) (V c main_v4) (V c main_v8)) := by
  show (cfg0.win 8).cut (grid0.coords t) ((dat0 (F := Ideal) V c).after 8 t) = _
  rw [after0_8]
  unfold out0_8
  rw [View.canon_unit_zero off_zero]
  simp only [View.ld_unit_zero (S := S512x1024) off_zero, View.ld_unit_zero (S := S1024x1024) off_zero, View.ld_unit_zero (S := S1x1024) off_zero]
  rw [pay3_eq]
  have e := idx_facts t
  have e0 : win0_8.index t (0 : Fin 2) = t.val := e.2.2.2.2.2.2.2.2.2.2.2.2.2.2.2.2.1
  have e1 : win0_8.index t (1 : Fin 2) = 0 := e.2.2.2.2.2.2.2.2.2.2.2.2.2.2.2.2.2.1
  funext j
  refine block_apply (V c main_v0) (V c main_v4) (V c main_v8) (iblk0 V c 0 t) (iblk0 V c 3 t) (iblk0 V c 4 t)
    ((win0 8).xinj (grid0.coords t) j) (((cfg0.win 8).blk t).view.emb j) ?_ ?_ ?_
  · intro j'
    refine xblk_apply V c t _ _ ?_ ?_
    · show win0_8.index t (0 : Fin 2) * 512 + 1 * (j 0).val = 512 * t.val + (j 0).val
      rw [e0]; omega
    · rfl
  · intro j'
    refine wblk3_apply V c t _ _ ?_ ?_
    · rfl
    · show win0_8.index t (1 : Fin 2) * 1024 + 1 * (j 1).val = (j 1).val
      rw [e1]; omega
  · refine bblk4_apply V c t _ _ ?_ ?_
    · rfl
    · show win0_8.index t (1 : Fin 2) * 1024 + 1 * (j 1).val = (j 1).val
      rw [e1]; omega

/-- An index of the array is in point `t`'s block iff each coordinate is in the block's range on its axis. -/
theorem mem_blk8 (t : Fin cfg0.N) (i : S4096x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v10_1).slice (win0_8.rect t)).set ↔ _
  rw [View.set_slice_whole, Rect.mem_set_unit]
  exact Iff.rfl

/-- Row `r` of the array is in the block of point `r / 512`. -/
theorem cover8 (i : S4096x1024.Idx) :
    ∃ t : Fin cfg0.N, (cfg0.win 8).flush t = true ∧ i ∈ ((cfg0.win 8).blk t).view.set := by
  have hi0 : (i 0).val < 4096 := (i 0).isLt
  have hi1 : (i 1).val < 1024 := (i 1).isLt
  have hN : cfg0.N = 8 := N_0
  let t : Fin cfg0.N := ⟨(i 0).val / 512, by rw [hN]; omega⟩
  have e := idx_facts t
  have e0 : win0_8.index t (0 : Fin 2) = (i 0).val / 512 := e.2.2.2.2.2.2.2.2.2.2.2.2.2.2.2.2.1
  have e1 : win0_8.index t (1 : Fin 2) = 0 := e.2.2.2.2.2.2.2.2.2.2.2.2.2.2.2.2.2.1
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; rw [e0]; omega
  | ⟨1, _⟩ => show win0_8.index t (1 : Fin 2) * 1024 ≤ (i 1).val ∧ (i 1).val < win0_8.index t (1 : Fin 2) * 1024 + 1024; rw [e1]; omega

/-- THE ARRAY after the region: the layer of the arrays the region finds. -/
theorem k_array (c : Dev nD) :
    (dat0 (F := Ideal) V c).arrAt 8 cfg0.N = proj2d (V c main_v0) (V c main_v4) (V c main_v8) :=
  (dat0 (F := Ideal) V c).arrAt_eq_of_cover 8 (proj2d (V c main_v0) (V c main_v4) (V c main_v8))
    (fun t _ => flushed8_eq V c t) (cover8)

/-! ### Output window 9 -/

/-- Window 5's block at any point is its whole array. -/
theorem wblk5_apply (c : Dev nD) (t : Fin cfg0.N) (x : S1024x1024.Idx) (k : S1024x1024.Idx)
    (hk0 : (k 0).val = (x 0).val) (hk1 : (k 1).val = (x 1).val) :
    (iblk0 V c 5 t : Vec Ideal S1024x1024 .bf16) x = (V c main_v6 : S1024x1024.Idx → EReal) k := by
  have e := idx_facts t
  have e0 : win0_5.index t (0 : Fin 2) = 0 := e.2.2.2.2.2.2.2.2.2.2.1
  have e1 : win0_5.index t (1 : Fin 2) = 0 := e.2.2.2.2.2.2.2.2.2.2.2.1
  show V c main_v6 (((cfg0.win 5).blk t).view.emb x) = V c main_v6 k
  refine congrArg (V c main_v6) (funext fun a => Fin.ext ?_)
  match a with
  | ⟨0, _⟩ => show win0_5.index t (0 : Fin 2) * 1024 + 1 * (x 0).val = (k 0).val; rw [e0, hk0]; omega
  | ⟨1, _⟩ => show win0_5.index t (1 : Fin 2) * 1024 + 1 * (x 1).val = (k 1).val; rw [e1, hk1]; omega

/-- Window 6's block at any point is its whole one-row array. -/
theorem bblk6_apply (c : Dev nD) (t : Fin cfg0.N) (x : S1x1024.Idx) (k : S1x1024.Idx)
    (hk0 : (k 0).val = (x 0).val) (hk1 : (k 1).val = (x 1).val) :
    (iblk0 V c 6 t : Vec Ideal S1x1024 .f32) x = (V c main_v9 : S1x1024.Idx → EReal) k := by
  have e := idx_facts t
  have e0 : win0_6.index t (0 : Fin 2) = 0 := e.2.2.2.2.2.2.2.2.2.2.2.2.1
  have e1 : win0_6.index t (1 : Fin 2) = 0 := e.2.2.2.2.2.2.2.2.2.2.2.2.2.1
  show V c main_v9 (((cfg0.win 6).blk t).view.emb x) = V c main_v9 k
  refine congrArg (V c main_v9) (funext fun a => Fin.ext ?_)
  match a with
  | ⟨0, _⟩ => show win0_6.index t (0 : Fin 2) * 1 + 1 * (x 0).val = (k 0).val; rw [e0, hk0]; omega
  | ⟨1, _⟩ => show win0_6.index t (1 : Fin 2) * 1024 + 1 * (x 1).val = (k 1).val; rw [e1, hk1]; omega

/-- WHAT POINT `t` WRITES BACK to window 9 is block `t` of the layer of the arrays the region finds. -/
theorem flushed9_eq (c : Dev nD) (t : Fin cfg0.N) :
    (dat0 (F := Ideal) V c).flushed 9 t
      = ((cfg0.win 9).blk t).view.read (Elt Ideal) (proj2d (V c main_v0) (V c main_v6) (V c main_v9)) := by
  show (cfg0.win 9).cut (grid0.coords t) ((dat0 (F := Ideal) V c).after 9 t) = _
  rw [after0_9]
  unfold out0_9
  rw [View.canon_unit_zero off_zero]
  simp only [View.ld_unit_zero (S := S512x1024) off_zero, View.ld_unit_zero (S := S1024x1024) off_zero, View.ld_unit_zero (S := S1x1024) off_zero]
  rw [pay4_eq]
  have e := idx_facts t
  have e0 : win0_9.index t (0 : Fin 2) = t.val := e.2.2.2.2.2.2.2.2.2.2.2.2.2.2.2.2.2.2.1
  have e1 : win0_9.index t (1 : Fin 2) = 0 := e.2.2.2.2.2.2.2.2.2.2.2.2.2.2.2.2.2.2.2
  funext j
  refine block_apply (V c main_v0) (V c main_v6) (V c main_v9) (iblk0 V c 0 t) (iblk0 V c 5 t) (iblk0 V c 6 t)
    ((win0 9).xinj (grid0.coords t) j) (((cfg0.win 9).blk t).view.emb j) ?_ ?_ ?_
  · intro j'
    refine xblk_apply V c t _ _ ?_ ?_
    · show win0_9.index t (0 : Fin 2) * 512 + 1 * (j 0).val = 512 * t.val + (j 0).val
      rw [e0]; omega
    · rfl
  · intro j'
    refine wblk5_apply V c t _ _ ?_ ?_
    · rfl
    · show win0_9.index t (1 : Fin 2) * 1024 + 1 * (j 1).val = (j 1).val
      rw [e1]; omega
  · refine bblk6_apply V c t _ _ ?_ ?_
    · rfl
    · show win0_9.index t (1 : Fin 2) * 1024 + 1 * (j 1).val = (j 1).val
      rw [e1]; omega

/-- An index of the array is in point `t`'s block iff each coordinate is in the block's range on its axis. -/
theorem mem_blk9 (t : Fin cfg0.N) (i : S4096x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v10_2).slice (win0_9.rect t)).set ↔ _
  rw [View.set_slice_whole, Rect.mem_set_unit]
  exact Iff.rfl

/-- Row `r` of the array is in the block of point `r / 512`. -/
theorem cover9 (i : S4096x1024.Idx) :
    ∃ t : Fin cfg0.N, (cfg0.win 9).flush t = true ∧ i ∈ ((cfg0.win 9).blk t).view.set := by
  have hi0 : (i 0).val < 4096 := (i 0).isLt
  have hi1 : (i 1).val < 1024 := (i 1).isLt
  have hN : cfg0.N = 8 := N_0
  let t : Fin cfg0.N := ⟨(i 0).val / 512, by rw [hN]; omega⟩
  have e := idx_facts t
  have e0 : win0_9.index t (0 : Fin 2) = (i 0).val / 512 := e.2.2.2.2.2.2.2.2.2.2.2.2.2.2.2.2.2.2.1
  have e1 : win0_9.index t (1 : Fin 2) = 0 := e.2.2.2.2.2.2.2.2.2.2.2.2.2.2.2.2.2.2.2
  refine ⟨t, flush0_9 t, ?_⟩
  rw [mem_blk9]
  intro a
  match a with
  | ⟨0, _⟩ => show win0_9.index t (0 : Fin 2) * 512 ≤ (i 0).val ∧ (i 0).val < win0_9.index t (0 : Fin 2) * 512 + 512; rw [e0]; omega
  | ⟨1, _⟩ => show win0_9.index t (1 : Fin 2) * 1024 ≤ (i 1).val ∧ (i 1).val < win0_9.index t (1 : Fin 2) * 1024 + 1024; rw [e1]; omega

/-- THE ARRAY after the region: the layer of the arrays the region finds. -/
theorem v_array (c : Dev nD) :
    (dat0 (F := Ideal) V c).arrAt 9 cfg0.N = proj2d (V c main_v0) (V c main_v6) (V c main_v9) :=
  (dat0 (F := Ideal) V c).arrAt_eq_of_cover 9 (proj2d (V c main_v0) (V c main_v6) (V c main_v9))
    (fun t _ => flushed9_eq V c t) (cover9)

end Arrays

end Cert.KernelIdeal.ProjValue

end
-- ==== Proof.SlabBodyHead.lean ====
/-
  One attention head on matrices, read at an index.

  For a query matrix `q` and a key matrix `k` of 512 rows and 64 columns, an additive mask row `m` and a value
  matrix `vv`, the head computes the scores `(q · kᵀ) · c + m`, the softmax of each row (the row maximum folded from
  the word that denotes -∞, the exponentials of the differences, their row sum, the quotient), and the product of the
  probabilities with `vv`.  Each step is read here at one index: a layout operation reads its operand at a renamed
  index, a reduction along the key axis is a fold or a sum over the 512 key positions, and a matrix product is the sum
  over its one contracted coordinate.
-/
import proofs.«114286_j6004364280065_2_alg».proof.Proof.Gen.KernelIdeal.Skeleton
import proofs.«114286_j6004364280065_2_alg».proof.Proof.AttnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.SlabValue

open Idealize.ShloMosaic Idealize.ShloMosaic.ValueIdx
open Cert.KernelIdeal.Facts₀

/-! ## Three layout operations at an index -/

section Layout
variable {α : Type}

/-- A `[1, 1, 1, a]` array cast to `[a]` reads, at `t`, the operand at `(0, 0, 0, t)`: the row-major positions agree. -/
theorem shapeCast_111a_a_apply {a : ℕ} (x : (⟨4, ![1, 1, 1, a]⟩ : Shape).Idx → α)
    (h : (⟨4, ![1, 1, 1, a]⟩ : Shape).ShapeCasts ⟨1, ![a]⟩) (t : Fin a) :
    shapeCast ⟨1, ![a]⟩ x h (ix1 t) = x (ix4 (0 : Fin 1) (0 : Fin 1) (0 : Fin 1) t) :=
  shapeCast_apply x h _ _ (by
    rw [Shape.rowMajor_val_four, Shape.rowMajor_val_one]
    show ((0 * 1 + 0) * 1 + 0) * a + t.val = t.val
    simp only [Nat.zero_mul, Nat.zero_add])

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two matrix products at an index

  Each product contracts one axis.  Its operand indices at an output index and a contraction coordinate are computed
  once, axis by axis; the sum over the contraction shape's index is then the sum over the one coordinate. -/

section Products

/-- The scores' product `q · kᵀ`: both operands are contracted along their columns. -/
theorem qk_lhs_0 (i : S512x512.Idx) (c : dot_S512x64_S512x64_S512x512_1_1_0_0_n_n.contr.Idx) :
    (dot_S512x64_S512x64_S512x512_1_1_0_0_n_n.lhsIdx i c 0).val = (i 0).val := by
  unfold DotDims.lhsIdx
  rw [dif_neg (show ¬(0 : Fin S512x64.rank) ∈ dot_S512x64_S512x64_S512x512_1_1_0_0_n_n.lhsBatch by decide),
    dif_pos (show (0 : Fin S512x64.rank) ∈ dot_S512x64_S512x64_S512x512_1_1_0_0_n_n.lhsNonContracting by decide)]
  rfl
theorem qk_lhs_1 (i : S512x512.Idx) (c : dot_S512x64_S512x64_S512x512_1_1_0_0_n_n.contr.Idx) :
    (dot_S512x64_S512x64_S512x512_1_1_0_0_n_n.lhsIdx i c 1).val = (c ⟨0, by decide⟩).val :=
  dot_S512x64_S512x64_S512x512_1_1_0_0_n_n.lhsIdx_val_of_single rfl i c
theorem qk_rhs_0 (i : S512x512.Idx) (c : dot_S512x64_S512x64_S512x512_1_1_0_0_n_n.contr.Idx) :
    (dot_S512x64_S512x64_S512x512_1_1_0_0_n_n.rhsIdx i c 0).val = (i 1).val := by
  unfold DotDims.rhsIdx
  rw [dif_neg (show ¬(0 : Fin S512x64.rank) ∈ dot_S512x64_S512x64_S512x512_1_1_0_0_n_n.rhsBatch by decide),
    dif_pos (show (0 : Fin S512x64.rank) ∈ dot_S512x64_S512x64_S512x512_1_1_0_0_n_n.rhsNonContracting by decide)]
  rfl
theorem qk_rhs_1 (i : S512x512.Idx) (c : dot_S512x64_S512x64_S512x512_1_1_0_0_n_n.contr.Idx) :
    (dot_S512x64_S512x64_S512x512_1_1_0_0_n_n.rhsIdx i c 1).val = (c ⟨0, by decide⟩).val :=
  dot_S512x64_S512x64_S512x512_1_1_0_0_n_n.rhsIdx_val_of_single rfl i c

/-- `q · kᵀ` into the zero splat, at `(s, t)`: the inner product of row `s` of `q` with row `t` of `k`. -/
theorem qk_apply (q k : FVec Ideal S512x64 .bf16) (s t : Fin 512) :
    matmul dot_S512x64_S512x64_S512x512_1_1_0_0_n_n none q k (constant (F := Ideal) S512x512 .f32 0x00000000#32) (ix2 s t)
      = ∑ d : Fin 64, q (ix2 s d) * k (ix2 t d) := by
  refine (Ideal.matmul_constant_zero_apply dot_S512x64_S512x64_S512x512_1_1_0_0_n_n none q k (ix2 s t)).trans ?_
  rw [← Equiv.sum_comp (contrEquiv1 dot_S512x64_S512x64_S512x512_1_1_0_0_n_n 64 rfl rfl).symm]
  refine Finset.sum_congr rfl fun d _ => ?_
  have hd := contrEquiv1_symm_val dot_S512x64_S512x64_S512x512_1_1_0_0_n_n 64 rfl rfl d
  have el : dot_S512x64_S512x64_S512x512_1_1_0_0_n_n.lhsIdx (ix2 s t)
      ((contrEquiv1 dot_S512x64_S512x64_S512x512_1_1_0_0_n_n 64 rfl rfl).symm d) = ix2 s d :=
    funext fun a => Fin.ext (by
      match a with
      | ⟨0, _⟩ => exact qk_lhs_0 _ _
      | ⟨1, _⟩ => exact (qk_lhs_1 _ _).trans hd)
  have er : dot_S512x64_S512x64_S512x512_1_1_0_0_n_n.rhsIdx (ix2 s t)
      ((contrEquiv1 dot_S512x64_S512x64_S512x512_1_1_0_0_n_n 64 rfl rfl).symm d) = ix2 t d :=
    funext fun a => Fin.ext (by
      match a with
      | ⟨0, _⟩ => exact qk_rhs_0 _ _
      | ⟨1, _⟩ => exact (qk_rhs_1 _ _).trans hd)
  rw [el, er]

/-- The weighted sum `p · vv`: the probabilities are contracted along the key axis, the values along their rows. -/
theorem pv_lhs_0 (i : S512x64.Idx) (c : dot_S512x512_S512x64_S512x64_1_0_0_1_n_n.contr.Idx) :
    (dot_S512x512_S512x64_S512x64_1_0_0_1_n_n.lhsIdx i c 0).val = (i 0).val := by
  unfold DotDims.lhsIdx
  rw [dif_neg (show ¬(0 : Fin S512x512.rank) ∈ dot_S512x512_S512x64_S512x64_1_0_0_1_n_n.lhsBatch by decide),
    dif_pos (show (0 : Fin S512x512.rank) ∈ dot_S512x512_S512x64_S512x64_1_0_0_1_n_n.lhsNonContracting by decide)]
  rfl
theorem pv_lhs_1 (i : S512x64.Idx) (c : dot_S512x512_S512x64_S512x64_1_0_0_1_n_n.contr.Idx) :
    (dot_S512x512_S512x64_S512x64_1_0_0_1_n_n.lhsIdx i c 1).val = (c ⟨0, by decide⟩).val :=
  dot_S512x512_S512x64_S512x64_1_0_0_1_n_n.lhsIdx_val_of_single rfl i c
theorem pv_rhs_0 (i : S512x64.Idx) (c : dot_S512x512_S512x64_S512x64_1_0_0_1_n_n.contr.Idx) :
    (dot_S512x512_S512x64_S512x64_1_0_0_1_n_n.rhsIdx i c 0).val = (c ⟨0, by decide⟩).val :=
  dot_S512x512_S512x64_S512x64_1_0_0_1_n_n.rhsIdx_val_of_single rfl i c
theorem pv_rhs_1 (i : S512x64.Idx) (c : dot_S512x512_S512x64_S512x64_1_0_0_1_n_n.contr.Idx) :
    (dot_S512x512_S512x64_S512x64_1_0_0_1_n_n.rhsIdx i c 1).val = (i 1).val := by
  unfold DotDims.rhsIdx
  rw [dif_neg (show ¬(1 : Fin S512x64.rank) ∈ dot_S512x512_S512x64_S512x64_1_0_0_1_n_n.rhsBatch by decide),
    dif_pos (show (1 : Fin S512x64.rank) ∈ dot_S512x512_S512x64_S512x64_1_0_0_1_n_n.rhsNonContracting by decide)]
  rfl

/-- `p · vv` into the zero splat, at `(s, d)`: the sum over the key positions of `p[s, t] · vv[t, d]`. -/
theorem pv_apply (p : FVec Ideal S512x512 .bf16) (vv : FVec Ideal S512x64 .bf16) (s : Fin 512) (d : Fin 64) :
    matmul dot_S512x512_S512x64_S512x64_1_0_0_1_n_n none p vv (constant (F := Ideal) S512x64 .f32 0x00000000#32) (ix2 s d)
      = ∑ t : Fin 512, p (ix2 s t) * vv (ix2 t d) := by
  refine (Ideal.matmul_constant_zero_apply dot_S512x512_S512x64_S512x64_1_0_0_1_n_n none p vv (ix2 s d)).trans ?_
  rw [← Equiv.sum_comp (contrEquiv1 dot_S512x512_S512x64_S512x64_1_0_0_1_n_n 512 rfl rfl).symm]
  refine Finset.sum_congr rfl fun t _ => ?_
  have ht := contrEquiv1_symm_val dot_S512x512_S512x64_S512x64_1_0_0_1_n_n 512 rfl rfl t
  have el : dot_S512x512_S512x64_S512x64_1_0_0_1_n_n.lhsIdx (ix2 s d)
      ((contrEquiv1 dot_S512x512_S512x64_S512x64_1_0_0_1_n_n 512 rfl rfl).symm t) = ix2 s t :=
    funext fun a => Fin.ext (by
      match a with
      | ⟨0, _⟩ => exact pv_lhs_0 _ _
      | ⟨1, _⟩ => exact (pv_lhs_1 _ _).trans ht)
  have er : dot_S512x512_S512x64_S512x64_1_0_0_1_n_n.rhsIdx (ix2 s d)
      ((contrEquiv1 dot_S512x512_S512x64_S512x64_1_0_0_1_n_n 512 rfl rfl).symm t) = ix2 t d :=
    funext fun a => Fin.ext (by
      match a with
      | ⟨0, _⟩ => exact (pv_rhs_0 _ _).trans ht
      | ⟨1, _⟩ => exact pv_rhs_1 _ _)
  rw [el, er]

end Products

/-! ## The softmax of each row -/

section Softmax

/-- The index a reduction along the key axis inserts into row `s`: `(s, t)`. -/
theorem lift_row (h : S512x512.Reduces [1] S512) (s t : Fin 512) : h.lift (ix1 s) t = ix2 s t :=
  funext fun a => Fin.ext (by match a with | ⟨0, _⟩ => rfl | ⟨1, _⟩ => rfl)

/-- The maximum along the key axis, folded from the word that denotes -∞, at row `s`. -/
theorem rowMax_apply (r : FVec Ideal S512x512 .f32) (h : S512x512.Reduces [1] S512) (hφ : FKind.Formats .f32)
    (hacc : (0xFF800000#32 : BitVec 32) = 0xFF800000#32) (s : Fin 512) :
    multiReduction (F := Ideal) .maximumf [1] S512 r 0xFF800000#32 h hφ hacc (ix1 s)
      = Cert.Attn.rowMax (fun t => r (ix2 s t)) := by
  refine (Ideal.multiReduction_maximumf_single r _ h hφ hacc (ix1 s)).trans ?_
  have e : (r ∘ h.lift (ix1 s)) = fun t : Fin 512 => r (ix2 s t) := funext fun t => congrArg r (lift_row h s t)
  rw [e]
  rfl

/-- The sum along the key axis at row `s`. -/
theorem rowSum_apply (w : FVec Ideal S512x512 .f32) (h : S512x512.Reduces [1] S512) (hφ : FKind.Formats .f32)
    (hacc : (0x00000000#32 : BitVec 32) = 0x00000000#32) (s : Fin 512) :
    multiReduction (F := Ideal) .add [1] S512 w 0x00000000#32 h hφ hacc (ix1 s) = ∑ t : Fin 512, w (ix2 s t) := by
  refine (Ideal.multiReduction_add_single w _ h hφ hacc (ix1 s)).trans ?_
  exact Finset.sum_congr rfl fun t _ => congrArg w (lift_row h s t)

/-- A per-row value kept as a column and broadcast along the key axis reads, at `(s, t)`, the value of row `s`. -/
theorem col_apply (c : FVec Ideal S512 .f32) (h1 : S512.ShapeCasts S512x1) (h2 : S512x1.Broadcasts S512x512) (s t : Fin 512) :
    broadcastTo S512x512 (shapeCast S512x1 c h1) h2 (ix2 s t) = c (ix1 s) :=
  (broadcastTo_a1_ab_apply _ h2 s t).trans (shapeCast_a_a1_apply c h1 s 0)

/-- The unnormalised weights: the exponential of each score less its row's maximum. -/
def headWeight (r : FVec Ideal S512x512 .f32) : FVec Ideal S512x512 .f32 :=
  exp (subf r (broadcastTo S512x512 (shapeCast S512x1
    (multiReduction .maximumf [1] S512 r 0xFF800000#32 reduces_S512x512_S512 (.inl rfl) rfl) shapeCasts_S512_S512x1)
    broadcasts_S512x1_S512x512))

theorem headWeight_apply (r : FVec Ideal S512x512 .f32) (s t : Fin 512) :
    headWeight r (ix2 s t) = Cert.Attn.weight (fun u => r (ix2 s u)) t := by
  show Ideal.exp (r (ix2 s t) - broadcastTo S512x512 (shapeCast S512x1
      (multiReduction (F := Ideal) .maximumf [1] S512 r 0xFF800000#32 reduces_S512x512_S512 (.inl rfl) rfl) shapeCasts_S512_S512x1)
      broadcasts_S512x1_S512x512 (ix2 s t))
    = Ideal.exp (r (ix2 s t) - Cert.Attn.rowMax (fun u => r (ix2 s u)))
  rw [col_apply, rowMax_apply]

/-- The probabilities: each weight over its row's sum of weights. -/
def headProb (r : FVec Ideal S512x512 .f32) : FVec Ideal S512x512 .f32 :=
  divf (headWeight r) (broadcastTo S512x512 (shapeCast S512x1
    (multiReduction .add [1] S512 (headWeight r) 0x00000000#32 reduces_S512x512_S512 (.inl rfl) rfl) shapeCasts_S512_S512x1)
    broadcasts_S512x1_S512x512)

theorem headProb_apply (r : FVec Ideal S512x512 .f32) (s t : Fin 512) :
    headProb r (ix2 s t) = Cert.Attn.prob (fun u => r (ix2 s u)) t := by
  show Ideal.div (headWeight r (ix2 s t)) (broadcastTo S512x512 (shapeCast S512x1
      (multiReduction (F := Ideal) .add [1] S512 (headWeight r) 0x00000000#32 reduces_S512x512_S512 (.inl rfl) rfl) shapeCasts_S512_S512x1)
      broadcasts_S512x1_S512x512 (ix2 s t))
    = Ideal.div (Cert.Attn.weight (fun u => r (ix2 s u)) t) (∑ u : Fin 512, Cert.Attn.weight (fun u => r (ix2 s u)) u)
  rw [col_apply, rowSum_apply]
  simp only [headWeight_apply]

end Softmax

/-! ## One head -/

section Head

/-- The scores: `(q · kᵀ) · c` plus the mask row broadcast over the query positions. -/
def headScore (q k : FVec Ideal S512x64 .bf16) (m : FVec Ideal S1x512 .f32) : FVec Ideal S512x512 .f32 :=
  addf (mulf (matmul dot_S512x64_S512x64_S512x512_1_1_0_0_n_n none q k (constant S512x512 .f32 0x00000000#32))
      (broadcast S512x512 (Scalar.ofBits .f32 0x3E000000#32)))
    (broadcastTo S512x512 m broadcasts_S1x512_S512x512)

theorem headScore_apply (q k : FVec Ideal S512x64 .bf16) (m : FVec Ideal S1x512 .f32) (s t : Fin 512) :
    headScore q k m (ix2 s t) = (∑ d : Fin 64, q (ix2 s d) * k (ix2 t d)) * Cert.Attn.scale + m (ix2 (0 : Fin 1) t) := by
  show matmul dot_S512x64_S512x64_S512x512_1_1_0_0_n_n none q k (constant (F := Ideal) S512x512 .f32 0x00000000#32) (ix2 s t)
      * Ideal.ofBits .f32 0x3E000000#32 + broadcastTo S512x512 m broadcasts_S1x512_S512x512 (ix2 s t) = _
  rw [qk_apply, broadcastTo_1b_ab_apply]

/-- The head's output: the probabilities of the scores `r` times the values. -/
def headOut (r : FVec Ideal S512x512 .f32) (vv : FVec Ideal S512x64 .bf16) : FVec Ideal S512x64 .f32 :=
  matmul dot_S512x512_S512x64_S512x64_1_0_0_1_n_n none (truncf .bf16 (headProb r) bitsLt_bf16_f32) vv
    (constant S512x64 .f32 0x00000000#32)

theorem headOut_apply (r : FVec Ideal S512x512 .f32) (vv : FVec Ideal S512x64 .bf16) (s : Fin 512) (d : Fin 64) :
    headOut r vv (ix2 s d) = ∑ t : Fin 512, Cert.Attn.prob (fun u => r (ix2 s u)) t * vv (ix2 t d) := by
  unfold headOut
  rw [pv_apply]
  refine Finset.sum_congr rfl fun t _ => ?_
  rw [truncf_apply, headProb_apply]

end Head

end Cert.KernelIdeal.SlabValue

end
-- ==== Proof.SlabBody.lean ====
/-
  The attention body of one block, read at an index.

  One block holds 512 positions and 128 lanes, that is two whole heads of width 64.  The body cuts the query, key and
  value blocks into the two heads' 64 lanes, computes each head on its own matrices, and lays the two results side by
  side along the lane axis.  Read at position `s` and lane `l` the result is the slab attention `Cert.Attn.slabCtx` of the
  block's own arrays: lane `l` is coordinate `l - 64·(l / 64)` of head `l / 64`.
-/
import proofs.«114286_j6004364280065_2_alg».proof.Proof.Gen.KernelIdeal.Frame
import proofs.«114286_j6004364280065_2_alg».proof.Proof.AttnSpec
import proofs.«114286_j6004364280065_2_alg».proof.Proof.SlabBodyHead
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.SlabValue

open Idealize.ShloMosaic Idealize.ShloMosaic.ValueIdx
open Cert.KernelIdeal.Facts₀

/-! ## The loaded blocks as matrices -/

/-- A loaded `[1, 512, 128]` block viewed as a matrix (the narrowing of the format is the identity on extended reals). -/
theorem pay2_apply (x : Vec Ideal S1x512x128 .f32) (s : Fin 512) (l : Fin 128) :
    Gen.k1_pay2 (F := Ideal) x (ix2 s l) = x (ix3 0 s l) :=
  shapeCast_1ab_ab_apply x _ s l
theorem pay3_apply (x : Vec Ideal S1x512x128 .f32) (s : Fin 512) (l : Fin 128) :
    Gen.k1_pay3 (F := Ideal) x (ix2 s l) = x (ix3 0 s l) :=
  shapeCast_1ab_ab_apply x _ s l
theorem pay4_apply (x : Vec Ideal S1x512x128 .f32) (s : Fin 512) (l : Fin 128) :
    Gen.k1_pay4 (F := Ideal) x (ix2 s l) = x (ix3 0 s l) :=
  shapeCast_1ab_ab_apply x _ s l
/-- The loaded mask block `[1, 1, 1, 512]` viewed as a vector, and as the one row `[1, 512]`. -/
theorem pay5_apply (x : Vec Ideal S1x1x1x512 .f32) (t : Fin 512) :
    Gen.k1_pay5 (F := Ideal) x (ix1 t) = x (ix4 0 0 0 t) :=
  shapeCast_111a_a_apply x _ t
theorem maskRow_apply (x : Vec Ideal S1x1x1x512 .f32) (t : Fin 512) :
    shapeCast S1x512 (Gen.k1_pay5 (F := Ideal) x) shapeCasts_S512_S1x512 (ix2 (0 : Fin 1) t) = x (ix4 0 0 0 t) :=
  (shapeCast_a_1a_apply _ _ 0 t).trans (pay5_apply x t)

/-! ## One head, cut out of the block at a lane offset -/

/-- The 64 lanes from offset `64·hh`: column `d` of the cut is lane `64·hh + d` of the block. -/
theorem cut_apply (off : Fin 2 → Nat) (hs : S512x128.Slices off S512x64) (hh : Fin 2) (h0 : off 0 = 0)
    (h1 : off 1 = 64 * hh.val) (y : FVec Ideal S512x128 .bf16) (s : Fin 512) (d : Fin 64) :
    extractStridedSlice S512x64 off y hs (ix2 s d) = y (ix2 s (Cert.Attn.slabLane hh d)) :=
  extractStridedSlice_apply off y hs (ix2 s d) (ix2 s (Cert.Attn.slabLane hh d)) (fun a => by
    match a with
    | ⟨0, _⟩ => show s.val = off 0 + s.val; rw [h0, Nat.zero_add]
    | ⟨1, _⟩ => show 64 * hh.val + d.val = off 1 + d.val; rw [h1])

/-- Head `hh` of the block: the head computed on the three cuts at offset `64·hh` and the mask row is the slab
    attention at lane `64·hh + d`. -/
theorem head_apply (off : Fin 2 → Nat) (hs : S512x128.Slices off S512x64) (hh : Fin 2) (h0 : off 0 = 0)
    (h1 : off 1 = 64 * hh.val) (x0 x1 x2 : Vec Ideal S1x512x128 .f32) (x3 : Vec Ideal S1x1x1x512 .f32)
    (s : Fin 512) (d : Fin 64) :
    headOut (headScore (extractStridedSlice S512x64 off (Gen.k1_pay2 (F := Ideal) x0) hs)
        (extractStridedSlice S512x64 off (Gen.k1_pay3 (F := Ideal) x1) hs)
        (shapeCast S1x512 (Gen.k1_pay5 (F := Ideal) x3) shapeCasts_S512_S1x512))
      (extractStridedSlice S512x64 off (Gen.k1_pay4 (F := Ideal) x2) hs) (ix2 s d)
    = Cert.Attn.slabCtx (fun s l => x0 (ix3 0 s l)) (fun s l => x1 (ix3 0 s l)) (fun s l => x2 (ix3 0 s l))
        (fun t => x3 (ix4 0 0 0 t)) s (Cert.Attn.slabLane hh d) := by
  rw [headOut_apply]
  have hH : Cert.Attn.slabHead (Cert.Attn.slabLane hh d) = hh :=
    Fin.ext (by show (64 * hh.val + d.val) / 64 = hh.val; have := d.isLt; omega)
  have hS : (fun u => headScore (extractStridedSlice S512x64 off (Gen.k1_pay2 (F := Ideal) x0) hs)
        (extractStridedSlice S512x64 off (Gen.k1_pay3 (F := Ideal) x1) hs)
        (shapeCast S1x512 (Gen.k1_pay5 (F := Ideal) x3) shapeCasts_S512_S1x512) (ix2 s u))
      = Cert.Attn.slabScore (fun s l => x0 (ix3 0 s l)) (fun s l => x1 (ix3 0 s l)) (fun t => x3 (ix4 0 0 0 t)) hh s :=
    funext fun u => by
      rw [headScore_apply, maskRow_apply]
      show _ = (∑ e : Fin 64, x0 (ix3 0 s (Cert.Attn.slabLane hh e)) * x1 (ix3 0 u (Cert.Attn.slabLane hh e)))
          * Cert.Attn.scale + x3 (ix4 0 0 0 u)
      simp only [cut_apply off hs hh h0 h1, pay2_apply, pay3_apply]
  rw [hS]
  show _ = ∑ t : Fin 512, Cert.Attn.prob (Cert.Attn.slabScore (fun s l => x0 (ix3 0 s l)) (fun s l => x1 (ix3 0 s l))
      (fun t => x3 (ix4 0 0 0 t)) (Cert.Attn.slabHead (Cert.Attn.slabLane hh d)) s) t * x2 (ix3 0 t (Cert.Attn.slabLane hh d))
  rw [hH]
  simp only [cut_apply off hs hh h0 h1, pay4_apply]

/-! ## The two heads side by side -/

/-- The body's result block is the two heads' outputs laid side by side along the lane axis, with a unit axis in front. -/
theorem body_eq (x0 x1 x2 : Vec Ideal S1x512x128 .f32) (x3 : Vec Ideal S1x1x1x512 .f32) :
    Gen.k1_pay1 (F := Ideal) (Gen.k1_pay6 x0 x1 x2 x3) (Gen.k1_pay7 x2) (Gen.k1_pay8 x0 x1) (Gen.k1_pay9 x3)
      = shapeCast S1x512x128 (concatenate S512x128 1
          [⟨S512x64, headOut (headScore (extractStridedSlice S512x64 ![0, 0] (Gen.k1_pay2 (F := Ideal) x0) slices_S512x128_o0_0_S512x64)
              (extractStridedSlice S512x64 ![0, 0] (Gen.k1_pay3 (F := Ideal) x1) slices_S512x128_o0_0_S512x64)
              (shapeCast S1x512 (Gen.k1_pay5 (F := Ideal) x3) shapeCasts_S512_S1x512))
            (extractStridedSlice S512x64 ![0, 0] (Gen.k1_pay4 (F := Ideal) x2) slices_S512x128_o0_0_S512x64)⟩,
           ⟨S512x64, headOut (headScore (extractStridedSlice S512x64 ![0, 64] (Gen.k1_pay2 (F := Ideal) x0) slices_S512x128_o0_64_S512x64)
              (extractStridedSlice S512x64 ![0, 64] (Gen.k1_pay3 (F := Ideal) x1) slices_S512x128_o0_64_S512x64)
              (shapeCast S1x512 (Gen.k1_pay5 (F := Ideal) x3) shapeCasts_S512_S1x512))
            (extractStridedSlice S512x64 ![0, 64] (Gen.k1_pay4 (F := Ideal) x2) slices_S512x128_o0_64_S512x64)⟩]
          concatenates_S512x64_S512x64_S512x128_d1) shapeCasts_S512x128_S1x512x128 := rfl

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- What the body leaves in the output block, at position `s` and lane `l`: the slab attention of the loaded blocks. -/
theorem out_block_apply (x0 x1 x2 : Vec Ideal S1x512x128 .f32) (x3 : Vec Ideal S1x1x1x512 .f32)
    (s : Fin 512) (l : Fin 128) :
    Gen.out1_4 (F := Ideal) x0 x1 x2 x3 (ix3 0 s l)
      = Cert.Attn.slabCtx (fun s l => x0 (ix3 0 s l)) (fun s l => x1 (ix3 0 s l)) (fun s l => x2 (ix3 0 s l))
          (fun t => x3 (ix4 0 0 0 t)) s l := by
  unfold Gen.out1_4
  rw [View.canon_unit_zero hz3]
  simp only [View.ld_unit_zero (S := S1x512x128) hz3, View.ld_unit_zero (S := S1x1x1x512) hz4]
  rw [body_eq, shapeCast_ab_1ab_apply]
  by_cases hl : l.val < 64
  · -- the first head's 64 lanes
    refine (concatenate_pair_apply_left (1 : Fin S512x128.rank) _ _ concatenates_S512x64_S512x64_S512x128_d1 (ix2 s l) rfl
      (ix2 s (⟨l.val, hl⟩ : Fin 64)) (fun b => by match b with | ⟨0, _⟩ => rfl | ⟨1, _⟩ => rfl)).trans ?_
    rw [head_apply ![0, 0] slices_S512x128_o0_0_S512x64 0 rfl rfl]
    have e : Cert.Attn.slabLane 0 (⟨l.val, hl⟩ : Fin 64) = l := Fin.ext (by show 64 * 0 + l.val = l.val; omega)
    rw [e]
  · -- the second head's 64 lanes
    have hl' : l.val - 64 < 64 := by have := l.isLt; omega
    refine (concatenate_pair_apply_right (1 : Fin S512x128.rank) _ _ concatenates_S512x64_S512x64_S512x128_d1 (ix2 s l) rfl rfl
      (ix2 s (⟨l.val - 64, hl'⟩ : Fin 64))
      (fun b hb => by match b, hb with | ⟨0, _⟩, _ => rfl | ⟨1, _⟩, hb => exact absurd rfl hb)
      (by show l.val - 64 + 64 = l.val; omega)).trans ?_
    rw [head_apply ![0, 64] slices_S512x128_o0_64_S512x64 1 rfl rfl]
    have e : Cert.Attn.slabLane 1 (⟨l.val - 64, hl'⟩ : Fin 64) = l := Fin.ext (by show 64 * 1 + (l.val - 64) = l.val; omega)
    rw [e]

end Cert.KernelIdeal.SlabValue

end
-- ==== Proof.AttnRegionSlab.lean ====
/-
  One block of 128 lanes against the whole model axis.

  Block `g` of the model axis holds lanes `128·g + l`, `l < 128`.  Lane `128·g + l` belongs to head `2·g + l / 64`
  and is coordinate `l % 64` of it, and coordinate `d` of that head is lane `128·g + 64·(l / 64) + d`: the block's own
  lane `64·(l / 64) + d`.  So attention computed from the block's lanes alone is the attention of the whole arrays read
  at the block's lanes.
-/
import proofs.«114286_j6004364280065_2_alg».proof.Proof.AttnSpec

noncomputable section

namespace Cert.KernelIdeal.AttnValue

open Idealize.ShloMosaic Idealize.ShloMosaic.ValueIdx Cert.Attn

/-- Lane `l` of block `g` on the model axis. -/
def blockLane (g : Fin 8) (l : Fin 128) : Fin 1024 := ⟨128 * g.val + l.val, by omega⟩

theorem blockLane_val (g : Fin 8) (l : Fin 128) : (blockLane g l).val = 128 * g.val + l.val := rfl

/-- Coordinate `d` of the head of lane `128·g + l` is the block's lane `64·(l / 64) + d`. -/
theorem lane_headOf_blockLane (g : Fin 8) (l : Fin 128) (d : Fin 64) :
    lane (headOf (blockLane g l)) d = blockLane g (slabLane (slabHead l) d) :=
  Fin.ext (by
    show 64 * ((128 * g.val + l.val) / 64) + d.val = 128 * g.val + (64 * (l.val / 64) + d.val)
    omega)

/-- Lane `128·g + l` is coordinate `l % 64` of its head: the lane itself. -/
theorem lane_headOf_offOf_blockLane (g : Fin 8) (l : Fin 128) :
    lane (headOf (blockLane g l)) (offOf (blockLane g l)) = blockLane g l :=
  lane_headOf_offOf _

section

variable (q k v : Fin 8 → Fin 512 → Fin 1024 → EReal) (mask : Fin 8 → Fin 512 → EReal)

/-- The score of a block's head is the score of the whole arrays in the head of the block's lane. -/
theorem slabScore_eq (b g : Fin 8) (l : Fin 128) (s t : Fin 512) :
    slabScore (fun s l => q b s (blockLane g l)) (fun s l => k b s (blockLane g l)) (mask b) (slabHead l) s t
      = score q k mask b (headOf (blockLane g l)) s t := by
  unfold slabScore score
  refine congrArg (fun z => z * scale + mask b t) ?_
  refine Finset.sum_congr rfl (fun d _ => ?_)
  rw [lane_headOf_blockLane]

/-- Attention of one block of lanes is attention of the whole arrays at the block's lanes. -/
theorem slab_eq (b g : Fin 8) (s : Fin 512) (l : Fin 128) :
    slabCtx (fun s l => q b s (blockLane g l)) (fun s l => k b s (blockLane g l))
        (fun s l => v b s (blockLane g l)) (mask b) s l
      = ctxAt q k v mask b s (blockLane g l) := by
  unfold slabCtx ctxAt ctx
  have hrow : slabScore (fun s l => q b s (blockLane g l)) (fun s l => k b s (blockLane g l)) (mask b) (slabHead l) s
      = score q k mask b (headOf (blockLane g l)) s := funext (fun t => slabScore_eq q k mask b g l s t)
  rw [hrow, lane_headOf_offOf_blockLane]

end

end Cert.KernelIdeal.AttnValue

end
-- ==== Proof.AttnRegion.lean ====
/-
  From the blocks of the attention region to its whole result array.

  The region runs over an 8 x 8 grid of points `(b, g)`: batch `b` and block `g` of 128 lanes of the model axis.  At a
  point the three activation arrays `[8, 512, 1024]` are read through the block `[1, 512, 128]` at block index
  `(b, 0, g)`, the mask `[8, 1, 1, 512]` through the block `[1, 1, 1, 512]` at `(b, 0, 0, 0)`, and the result is written
  back through the block `[1, 512, 128]` at `(b, 0, g)`.  An element of a block sits in its array, on each axis, at
  block index x block size + its coordinate inside the block: element `(0, s, l)` of an activation block is element
  `(b, s, 128·g + l)` of the array.  The block the body leaves is the slab attention of the input blocks, which is the
  attention of the whole arrays read at the block's lanes; the 64 output blocks tile the result array (element
  `(b, s, e)` lies in the block of point `(b, e / 128)`), so the array ends holding the attention of the whole arrays.
-/
import proofs.«114286_j6004364280065_2_alg».proof.Proof.Gen.KernelIdeal.Frame
import proofs.«114286_j6004364280065_2_alg».proof.Proof.AttnSpec
import proofs.«114286_j6004364280065_2_alg».proof.Proof.SlabBody
import proofs.«114286_j6004364280065_2_alg».proof.Proof.AttnRegionSlab
import Idealize.ShloMosaic.Lib.Pipeline.Value
import Idealize.ShloMosaic.Lib.ValueIdx

set_option maxRecDepth 16384

noncomputable section

namespace Cert.KernelIdeal.AttnValue

open Cert.KernelIdeal.Gen Idealize.ShloMosaic Idealize.ShloMosaic.TcCoe Idealize.SL.Sem
open Idealize.ShloMosaic.Pipeline (Dat)
open Idealize.ShloMosaic.ValueIdx Cert.Attn

/-! ## The block indices over the grid -/

/-- The index maps, decided over the grid's 64 points: every input block moves with the output block (same batch, same
    block of lanes; the mask's block with the batch alone), and the output's block indices stay in their ranges. -/
theorem idx_facts : ∀ t : Fin cfg1.N,
    win1_0.index t (0 : Fin 3) = win1_4.index t (0 : Fin 3) ∧ win1_0.index t (1 : Fin 3) = 0
    ∧ win1_0.index t (2 : Fin 3) = win1_4.index t (2 : Fin 3)
    ∧ win1_1.index t (0 : Fin 3) = win1_4.index t (0 : Fin 3) ∧ win1_1.index t (1 : Fin 3) = 0
    ∧ win1_1.index t (2 : Fin 3) = win1_4.index t (2 : Fin 3)
    ∧ win1_2.index t (0 : Fin 3) = win1_4.index t (0 : Fin 3) ∧ win1_2.index t (1 : Fin 3) = 0
    ∧ win1_2.index t (2 : Fin 3) = win1_4.index t (2 : Fin 3)
    ∧ win1_3.index t (0 : Fin 4) = win1_4.index t (0 : Fin 3) ∧ win1_3.index t (1 : Fin 4) = 0
    ∧ win1_3.index t (2 : Fin 4) = 0 ∧ win1_3.index t (3 : Fin 4) = 0
    ∧ win1_4.index t (0 : Fin 3) ≤ 7 ∧ win1_4.index t (1 : Fin 3) = 0 ∧ win1_4.index t (2 : Fin 3) ≤ 7 :=
  (by decide +kernel : ∀ t : Fin grid1.N, _)

/-- Every pair (batch, block of lanes) is some point's output block index. -/
theorem idx_onto : ∀ (b g : Fin 8), ∃ t : Fin cfg1.N, win1_4.index t = ![b.val, 0, g.val] :=
  (by decide +kernel : ∀ (b g : Fin 8), ∃ t : Fin grid1.N, win1_4.index t = ![b.val, 0, g.val])

/-! ## The arrays as functions of their coordinates -/

variable (V : (c : Dev nD) → (b : Ref sig .tc) → Buf (Elt Ideal) ((c : Thread nD τ).loc b))

/-- The three activation arrays and the mask, by batch, position and lane. -/
abbrev qArr (c : Dev nD) : Fin 8 → Fin 512 → Fin 1024 → EReal := fun b s e => (V c main_v11 : S8x512x1024.Idx → EReal) (ix3 b s e)
abbrev kArr (c : Dev nD) : Fin 8 → Fin 512 → Fin 1024 → EReal := fun b s e => (V c main_v12 : S8x512x1024.Idx → EReal) (ix3 b s e)
abbrev vArr (c : Dev nD) : Fin 8 → Fin 512 → Fin 1024 → EReal := fun b s e => (V c main_v13 : S8x512x1024.Idx → EReal) (ix3 b s e)
abbrev mArr (c : Dev nD) : Fin 8 → Fin 512 → EReal := maskAt (V c main_arg1 : S8x1x1x512.Idx → EReal)

/-- The result array where the blocks cover it: the attention of the three activation arrays under the mask. -/
abbrev G (c : Dev nD) : S8x512x1024.Idx → EReal := fun i =>
  ctxAt (qArr V c) (kArr V c) (vArr V c) (mArr V c) (i 0) (i 1) (i 2)

/-! ## Each input block read through its window -/

/-- Element `(0, s, l)` of the first activation block at a point whose output block index is `(b, 0, g)` is element
    `(b, s, 128·g + l)` of the array. -/
theorem iblk_q_apply (c : Dev nD) (t : Fin cfg1.N) (b g : Fin 8) (hb : win1_4.index t (0 : Fin 3) = b.val)
    (hg : win1_4.index t (2 : Fin 3) = g.val) (s : Fin 512) (l : Fin 128) :
    (iblk1 (F := Ideal) V c 0 t : Vec Ideal S1x512x128 .f32) (ix3 0 s l)
      = (V c main_v11 : S8x512x1024.Idx → EReal) (ix3 b s (blockLane g l)) := by
  obtain ⟨e0, e1, e2, -⟩ := idx_facts t
  unfold iblk1
  rw [View.read_apply]
  show (V c main_v11 : S8x512x1024.Idx → EReal) _ = _
  refine congrArg (V c main_v11 : S8x512x1024.Idx → EReal) ?_
  funext a
  apply Fin.ext
  match a with
  | ⟨0, _⟩ => show win1_0.index t (0 : Fin 3) * 1 + 1 * 0 = b.val; omega
  | ⟨1, _⟩ => show win1_0.index t (1 : Fin 3) * 512 + 1 * s.val = s.val; omega
  | ⟨2, _⟩ => show win1_0.index t (2 : Fin 3) * 128 + 1 * l.val = 128 * g.val + l.val; omega

/-- The same for the second activation block. -/
theorem iblk_k_apply (c : Dev nD) (t : Fin cfg1.N) (b g : Fin 8) (hb : win1_4.index t (0 : Fin 3) = b.val)
    (hg : win1_4.index t (2 : Fin 3) = g.val) (s : Fin 512) (l : Fin 128) :
    (iblk1 (F := Ideal) V c 1 t : Vec Ideal S1x512x128 .f32) (ix3 0 s l)
      = (V c main_v12 : S8x512x1024.Idx → EReal) (ix3 b s (blockLane g l)) := by
  obtain ⟨-, -, -, e0, e1, e2, -⟩ := idx_facts t
  unfold iblk1
  rw [View.read_apply]
  show (V c main_v12 : S8x512x1024.Idx → EReal) _ = _
  refine congrArg (V c main_v12 : S8x512x1024.Idx → EReal) ?_
  funext a
  apply Fin.ext
  match a with
  | ⟨0, _⟩ => show win1_1.index t (0 : Fin 3) * 1 + 1 * 0 = b.val; omega
  | ⟨1, _⟩ => show win1_1.index t (1 : Fin 3) * 512 + 1 * s.val = s.val; omega
  | ⟨2, _⟩ => show win1_1.index t (2 : Fin 3) * 128 + 1 * l.val = 128 * g.val + l.val; omega

/-- The same for the third activation block. -/
theorem iblk_v_apply (c : Dev nD) (t : Fin cfg1.N) (b g : Fin 8) (hb : win1_4.index t (0 : Fin 3) = b.val)
    (hg : win1_4.index t (2 : Fin 3) = g.val) (s : Fin 512) (l : Fin 128) :
    (iblk1 (F := Ideal) V c 2 t : Vec Ideal S1x512x128 .f32) (ix3 0 s l)
      = (V c main_v13 : S8x512x1024.Idx → EReal) (ix3 b s (blockLane g l)) := by
  obtain ⟨-, -, -, -, -, -, e0, e1, e2, -⟩ := idx_facts t
  unfold iblk1
  rw [View.read_apply]
  show (V c main_v13 : S8x512x1024.Idx → EReal) _ = _
  refine congrArg (V c main_v13 : S8x512x1024.Idx → EReal) ?_
  funext a
  apply Fin.ext
  match a with
  | ⟨0, _⟩ => show win1_2.index t (0 : Fin 3) * 1 + 1 * 0 = b.val; omega
  | ⟨1, _⟩ => show win1_2.index t (1 : Fin 3) * 512 + 1 * s.val = s.val; omega
  | ⟨2, _⟩ => show win1_2.index t (2 : Fin 3) * 128 + 1 * l.val = 128 * g.val + l.val; omega

/-- Element `(0, 0, 0, u)` of the mask block at a point of batch `b` is element `(b, 0, 0, u)` of the mask. -/
theorem iblk_m_apply (c : Dev nD) (t : Fin cfg1.N) (b : Fin 8) (hb : win1_4.index t (0 : Fin 3) = b.val) (u : Fin 512) :
    (iblk1 (F := Ideal) V c 3 t : Vec Ideal S1x1x1x512 .f32) (ix4 0 0 0 u)
      = maskAt (V c main_arg1 : S8x1x1x512.Idx → EReal) b u := by
  obtain ⟨-, -, -, -, -, -, -, -, -, e0, e1, e2, e3, -⟩ := idx_facts t
  unfold iblk1 maskAt
  rw [View.read_apply]
  show (V c main_arg1 : S8x1x1x512.Idx → EReal) _ = _
  refine congrArg (V c main_arg1 : S8x1x1x512.Idx → EReal) ?_
  funext a
  apply Fin.ext
  match a with
  | ⟨0, _⟩ => show win1_3.index t (0 : Fin 4) * 1 + 1 * 0 = b.val; omega
  | ⟨1, _⟩ => show win1_3.index t (1 : Fin 4) * 1 + 1 * 0 = 0; omega
  | ⟨2, _⟩ => show win1_3.index t (2 : Fin 4) * 1 + 1 * 0 = 0; omega
  | ⟨3, _⟩ => show win1_3.index t (3 : Fin 4) * 512 + 1 * u.val = u.val; omega

/-! ## What a point writes back -/

/-- The slab attention depends on its four arrays only through their values. -/
theorem slabCtx_congr {qb qb' kb kb' vb vb' : Fin 512 → Fin 128 → EReal} {mb mb' : Fin 512 → EReal}
    (hq : ∀ s l, qb s l = qb' s l) (hk : ∀ s l, kb s l = kb' s l) (hv : ∀ s l, vb s l = vb' s l)
    (hm : ∀ u, mb u = mb' u) (s : Fin 512) (l : Fin 128) : slabCtx qb kb vb mb s l = slabCtx qb' kb' vb' mb' s l := by
  obtain rfl : qb = qb' := funext fun s => funext fun l => hq s l
  obtain rfl : kb = kb' := funext fun s => funext fun l => hk s l
  obtain rfl : vb = vb' := funext fun s => funext fun l => hv s l
  obtain rfl : mb = mb' := funext hm
  rfl

/-- The block the body leaves at a point whose output block index is `(b, 0, g)`, at `(0, s, l)`: the attention of the whole
    arrays at `(b, s, 128·g + l)`. -/
theorem out_apply (c : Dev nD) (t : Fin cfg1.N) (b g : Fin 8) (hb : win1_4.index t (0 : Fin 3) = b.val)
    (hg : win1_4.index t (2 : Fin 3) = g.val) (s : Fin 512) (l : Fin 128) :
    out1_4 (F := Ideal) (iblk1 V c 0 t) (iblk1 V c 1 t) (iblk1 V c 2 t) (iblk1 V c 3 t) (ix3 0 s l)
      = G V c (ix3 b s (blockLane g l)) := by
  refine (SlabValue.out_block_apply (iblk1 (F := Ideal) V c 0 t) (iblk1 (F := Ideal) V c 1 t) (iblk1 (F := Ideal) V c 2 t)
    (iblk1 (F := Ideal) V c 3 t) s l).trans ?_
  refine (slabCtx_congr (qb' := fun s l => qArr V c b s (blockLane g l)) (kb' := fun s l => kArr V c b s (blockLane g l))
    (vb' := fun s l => vArr V c b s (blockLane g l)) (mb' := mArr V c b)
    (fun s l => iblk_q_apply V c t b g hb hg s l) (fun s l => iblk_k_apply V c t b g hb hg s l)
    (fun s l => iblk_v_apply V c t b g hb hg s l) (fun u => iblk_m_apply V c t b hb u) s l).trans ?_
  exact slab_eq (qArr V c) (kArr V c) (vArr V c) (mArr V c) b g s l

/-- Two blocks `[1, 512, 128]` that agree at every `(0, s, l)` are equal. -/
theorem block_ext (X Y : S1x512x128.Idx → EReal) (h : ∀ (s : Fin 512) (l : Fin 128), X (ix3 0 s l) = Y (ix3 0 s l)) : X = Y := by
  funext y
  have e : y = ix3 (0 : Fin 1) (y 1 : Fin 512) (y 2 : Fin 128) :=
    (eq_ix3 y).trans (congrArg (fun z : Fin 1 => (ix3 z (y 1 : Fin 512) (y 2 : Fin 128) : S1x512x128.Idx))
      (Subsingleton.elim (α := Fin 1) (y 0) 0))
  calc X y = X (ix3 (0 : Fin 1) (y 1 : Fin 512) (y 2 : Fin 128)) := congrArg X e
    _ = Y (ix3 (0 : Fin 1) (y 1 : Fin 512) (y 2 : Fin 128)) := h _ _
    _ = Y y := (congrArg Y e).symm

/-- What point `t` writes back is block `t` of `G` of the arrays as the region finds them. -/
theorem flushed_eq (c : Dev nD) (t : Fin cfg1.N) :
    (dat1 (F := Ideal) V c).flushed 4 t = ((cfg1.win 4).blk t).view.read (Elt Ideal) (G V c) := by
  show (cfg1.win 4).cut (grid1.coords t) ((dat1 (F := Ideal) V c).after 4 t) = _
  rw [after1_4]
  obtain ⟨-, -, -, -, -, -, -, -, -, -, -, -, -, h0, h1, h2⟩ := idx_facts t
  refine block_ext _ _ (fun s l => ?_)
  refine (out_apply V c t ⟨win1_4.index t (0 : Fin 3), by omega⟩ ⟨win1_4.index t (2 : Fin 3), by omega⟩ rfl rfl s l).trans ?_
  rw [View.read_apply]
  show G V c _ = G V c _
  refine congrArg (G V c) ?_
  funext a
  apply Fin.ext
  match a with
  | ⟨0, _⟩ => show win1_4.index t (0 : Fin 3) = win1_4.index t (0 : Fin 3) * 1 + 1 * 0; omega
  | ⟨1, _⟩ => show s.val = win1_4.index t (1 : Fin 3) * 512 + 1 * s.val; omega
  | ⟨2, _⟩ => show 128 * win1_4.index t (2 : Fin 3) + l.val = win1_4.index t (2 : Fin 3) * 128 + 1 * l.val; omega

/-! ## The cover, and the array -/

/-- An index of the result array is in point `t`'s block iff each coordinate is in the block's range on its axis. -/
theorem mem_blk (t : Fin cfg1.N) (i : S8x512x1024.Idx) :
    i ∈ ((cfg1.win 4).blk t).view.set ↔ ∀ a : Fin 3, win1_4.index t a * S1x512x128.size a ≤ (i a).val
      ∧ (i a).val < win1_4.index t a * S1x512x128.size a + S1x512x128.size a := by
  show i ∈ ((View.whole main_v14).slice (win1_4.rect t)).set ↔ _
  rw [View.set_slice_whole, Rect.mem_set_unit]
  exact Iff.rfl

/-- Every index `(b, s, e)` of the result array is in the block of the point `(b, e / 128)`. -/
theorem cover (i : S8x512x1024.Idx) :
    ∃ t : Fin cfg1.N, (cfg1.win 4).flush t = true ∧ i ∈ ((cfg1.win 4).blk t).view.set := by
  have hi0 : (i 0).val < 8 := (i 0).isLt
  have hi1 : (i 1).val < 512 := (i 1).isLt
  have hi2 : (i 2).val < 1024 := (i 2).isLt
  obtain ⟨t, ht⟩ := idx_onto ⟨(i 0).val, hi0⟩ ⟨(i 2).val / 128, by omega⟩
  have q0 : win1_4.index t (0 : Fin 3) = (i 0).val := congrFun ht 0
  have q1 : win1_4.index t (1 : Fin 3) = 0 := congrFun ht 1
  have q2 : win1_4.index t (2 : Fin 3) = (i 2).val / 128 := congrFun ht 2
  refine ⟨t, flush1_4 t, ?_⟩
  rw [mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 128 ≤ (i 2).val ∧ (i 2).val < win1_4.index t (2 : Fin 3) * 128 + 128; omega

/-- The result array after the region: the attention of the three activation arrays under the mask, as the region
    finds them. -/
theorem out_array (c : Dev nD) : (dat1 (F := Ideal) V c).arrAt 4 cfg1.N = fun i : S8x512x1024.Idx =>
    ctxAt (fun b s e => (V c main_v11 : S8x512x1024.Idx → EReal) (ix3 b s e))
      (fun b s e => (V c main_v12 : S8x512x1024.Idx → EReal) (ix3 b s e))
      (fun b s e => (V c main_v13 : S8x512x1024.Idx → EReal) (ix3 b s e))
      (maskAt (V c main_arg1 : S8x1x1x512.Idx → EReal)) (i 0) (i 1) (i 2) :=
  (dat1 (F := Ideal) V c).arrAt_eq_of_cover 4 (G V c) (fun t _ => flushed_eq V c t) cover

end Cert.KernelIdeal.AttnValue

end
-- ==== Proof.KernelValue.lean ====
/-
  The idealized kernel's result as ONE function of the launch arguments.

  The first call leaves, in each of its three `[4096, 1024]` outputs, the linear layer `x · Wᵀ + β` of the flattened
  activations; viewed as `[8, 512, 1024]` again, position `s` of batch `b` is row `512·b + s`, so the second call finds
  `q`, `k`, `v` equal to the three projections of the specification, and the mask as launched.  The second call leaves
  attention of what it finds.  Hence the result buffer holds `Cert.Attn.attn` of the eight arguments.
-/
import proofs.«114286_j6004364280065_2_alg».proof.Proof.KernelRun
import proofs.«114286_j6004364280065_2_alg».proof.Proof.HostGlue
import proofs.«114286_j6004364280065_2_alg».proof.Proof.AttnSpec
import proofs.«114286_j6004364280065_2_alg».proof.Proof.ProjRegion
import proofs.«114286_j6004364280065_2_alg».proof.Proof.AttnRegion

set_option maxRecDepth 16384

noncomputable section

namespace Cert.KernelIdeal.WholeValue

open Cert.KernelIdeal Cert.KernelIdeal.Gen Cert.KernelIdeal.GlueValue
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-! ## What the second call finds: the three projections -/

theorem q_entry (b : Fin 8) (s : Fin 512) (e : Fin 1024) :
    (V3 (F := Ideal) m ρ c main_v11 : S8x512x1024.Idx → EReal) (ix3 b s e)
      = Cert.Attn.proj (m ((c : Thread nD τ).loc main_arg0)) (m ((c : Thread nD τ).loc main_arg2)) (m ((c : Thread nD τ).loc main_arg3)) b s e := by
  refine (congrFun (V3_q m ρ c) (ix3 b s e)).trans ?_
  refine (unflatten_apply _ b s e ⟨512 * b.val + s.val, by omega⟩ rfl).trans ?_
  rw [ProjValue.q_array]
  unfold ProjValue.proj2d Cert.Attn.proj
  refine congr (congrArg HAdd.hAdd (Finset.sum_congr rfl fun j _ => ?_)) ?_
  · exact congr (congrArg HMul.hMul (V1_x_apply m ρ c b s j _ rfl)) (V1_wq_apply m ρ c j e)
  · exact V1_bq_apply m ρ c e

theorem k_entry (b : Fin 8) (s : Fin 512) (e : Fin 1024) :
    (V3 (F := Ideal) m ρ c main_v12 : S8x512x1024.Idx → EReal) (ix3 b s e)
      = Cert.Attn.proj (m ((c : Thread nD τ).loc main_arg0)) (m ((c : Thread nD τ).loc main_arg4)) (m ((c : Thread nD τ).loc main_arg5)) b s e := by
  refine (congrFun (V3_k m ρ c) (ix3 b s e)).trans ?_
  refine (unflatten_apply _ b s e ⟨512 * b.val + s.val, by omega⟩ rfl).trans ?_
  rw [ProjValue.k_array]
  unfold ProjValue.proj2d Cert.Attn.proj
  refine congr (congrArg HAdd.hAdd (Finset.sum_congr rfl fun j _ => ?_)) ?_
  · exact congr (congrArg HMul.hMul (V1_x_apply m ρ c b s j _ rfl)) (V1_wk_apply m ρ c j e)
  · exact V1_bk_apply m ρ c e

theorem v_entry (b : Fin 8) (s : Fin 512) (e : Fin 1024) :
    (V3 (F := Ideal) m ρ c main_v13 : S8x512x1024.Idx → EReal) (ix3 b s e)
      = Cert.Attn.proj (m ((c : Thread nD τ).loc main_arg0)) (m ((c : Thread nD τ).loc main_arg6)) (m ((c : Thread nD τ).loc main_arg7)) b s e := by
  refine (congrFun (V3_v m ρ c) (ix3 b s e)).trans ?_
  refine (unflatten_apply _ b s e ⟨512 * b.val + s.val, by omega⟩ rfl).trans ?_
  rw [ProjValue.v_array]
  unfold ProjValue.proj2d Cert.Attn.proj
  refine congr (congrArg HAdd.hAdd (Finset.sum_congr rfl fun j _ => ?_)) ?_
  · exact congr (congrArg HMul.hMul (V1_x_apply m ρ c b s j _ rfl)) (V1_wv_apply m ρ c j e)
  · exact V1_bv_apply m ρ c e

/-! ## The result -/

/-- The result buffer after the run is self-attention of the launch arguments. -/
theorem result_eq : @Eq (S8x512x1024.Idx → EReal) (W4 (F := Ideal) m ρ c (Proc.devRef .tc main_v14))
    (Cert.Attn.attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  refine (RunValue.W4_result m ρ c).trans ?_
  rw [AttnValue.out_array]
  funext i
  have hq : (fun b s e => (V3 (F := Ideal) m ρ c main_v11 : S8x512x1024.Idx → EReal) (ix3 b s e)) = Cert.Attn.proj (m ((c : Thread nD τ).loc main_arg0)) (m ((c : Thread nD τ).loc main_arg2)) (m ((c : Thread nD τ).loc main_arg3)) :=
    funext fun b => funext fun s => funext fun e => q_entry m ρ c b s e
  have hk : (fun b s e => (V3 (F := Ideal) m ρ c main_v12 : S8x512x1024.Idx → EReal) (ix3 b s e)) = Cert.Attn.proj (m ((c : Thread nD τ).loc main_arg0)) (m ((c : Thread nD τ).loc main_arg4)) (m ((c : Thread nD τ).loc main_arg5)) :=
    funext fun b => funext fun s => funext fun e => k_entry m ρ c b s e
  have hv : (fun b s e => (V3 (F := Ideal) m ρ c main_v13 : S8x512x1024.Idx → EReal) (ix3 b s e)) = Cert.Attn.proj (m ((c : Thread nD τ).loc main_arg0)) (m ((c : Thread nD τ).loc main_arg6)) (m ((c : Thread nD τ).loc main_arg7)) :=
    funext fun b => funext fun s => funext fun e => v_entry m ρ c b s e
  have hm : Cert.Attn.maskAt (V3 (F := Ideal) m ρ c main_arg1 : S8x1x1x512.Idx → EReal) = Cert.Attn.maskAt (m ((c : Thread nD τ).loc main_arg1)) :=
    congrArg Cert.Attn.maskAt (V3_mask m ρ c)
  unfold Cert.Attn.attn
  exact congr (congr (congr (congr (congr (congr (congrArg Cert.Attn.ctxAt hq) hk) hv) hm) rfl) rfl) rfl

end Cert.KernelIdeal.WholeValue

end
-- ==== Proof.RefAttnProj.lean ====
/-
  The reference's three linear layers, read at an index.

  Each of the three is `x · Wᵀ + β` written as a contraction over the model axis plus a bias broadcast along the
  batch and position axes, then viewed as `[8, 512, 16, 64]` (row-major: lane `64·h + d` is coordinate `d` of
  head `h`) and transposed to `[8, 16, 512, 64]`.  At `[b, h, s, d]` the transposed array is therefore the linear
  layer at `[b, s, 64·h + d]`.
-/
import proofs.«114286_j6004364280065_2_alg».proof.Proof.Gen.ReferenceIdeal.Read
import proofs.«114286_j6004364280065_2_alg».proof.Proof.AttnSpec

noncomputable section

namespace Cert.ReferenceIdeal.RefValue

open Cert.ReferenceIdeal Cert.ReferenceIdeal.Read Idealize.ShloMosaic Idealize.ShloMosaic.ValueIdx Cert.Attn

/-- The contraction reads the activations at `[b, s, j]` and the weights at `[e, j]`. -/
theorem lidx_v0 (b : Fin 8) (s : Fin 512) (e : Fin 1024) (j : Fin 1024) :
    lidx_main_v0 (ix3 b s e) j = ix3 b s j :=
  funext fun a => Fin.ext (by
    match a with
    | ⟨0, _⟩ => rfl
    | ⟨1, _⟩ => rfl
    | ⟨2, _⟩ => rfl)

theorem ridx_v0 (b : Fin 8) (s : Fin 512) (e : Fin 1024) (j : Fin 1024) :
    ridx_main_v0 (ix3 b s e) j = ix2 e j :=
  funext fun a => Fin.ext (by
    match a with
    | ⟨0, _⟩ => rfl
    | ⟨1, _⟩ => rfl)

/-- The bias, broadcast along batch and position, is read at the lane. -/
theorem idx_v1_v2 (b : Fin 8) (s : Fin 512) (e : Fin 1024) :
    idx_main_v1 (idx_main_v2 (ix3 b s e)) = ix1 e :=
  funext fun a => Fin.ext (by
    match a with
    | ⟨0, _⟩ => rfl)

/-- The first linear layer at `[b, s, e]`. -/
theorem v3_at (x0 : S8x512x1024.Idx → EReal) (x2 : S1024x1024.Idx → EReal) (x3 : S1024.Idx → EReal)
    (b : Fin 8) (s : Fin 512) (e : Fin 1024) :
    val_main_v3 (F := Ideal) x0 x2 x3 (ix3 b s e) = proj x0 x2 x3 b s e := by
  rw [val_main_v3_apply, val_main_v0_apply, val_main_v2_apply, val_main_v1_apply, idx_v1_v2]
  refine congrArg (· + x3 (ix1 e)) ?_
  refine Finset.sum_congr rfl fun j _ => ?_
  rw [lidx_v0, ridx_v0]

/-- Row-major `[8, 512, 16, 64]` against `[8, 512, 1024]`: position `[b, s, h, d]` is `[b, s, 64·h + d]`. -/
theorem idx_v4_v5 (b : Fin 8) (h : Fin 16) (s : Fin 512) (d : Fin 64) :
    idx_main_v4 (idx_main_v5 (ix4 b h s d)) = ix3 b s (lane h d) := by
  have hb := b.isLt; have hh := h.isLt; have hs := s.isLt; have hd := d.isLt
  refine funext fun a => Fin.ext ?_
  match a with
  | ⟨0, _⟩ => show (((b.val * 512 + s.val) * 16 + h.val) * 64 + d.val) / 524288 = b.val; omega
  | ⟨1, _⟩ => show (((b.val * 512 + s.val) * 16 + h.val) * 64 + d.val) / 1024 % 512 = s.val; omega
  | ⟨2, _⟩ => show (((b.val * 512 + s.val) * 16 + h.val) * 64 + d.val) % 1024 = 64 * h.val + d.val; omega

/-- The first linear layer in head layout. -/
theorem v5_at (x0 : S8x512x1024.Idx → EReal) (x2 : S1024x1024.Idx → EReal) (x3 : S1024.Idx → EReal)
    (b : Fin 8) (h : Fin 16) (s : Fin 512) (d : Fin 64) :
    val_main_v5 (F := Ideal) x0 x2 x3 (ix4 b h s d) = proj x0 x2 x3 b s (lane h d) := by
  rw [val_main_v5_apply, val_main_v4_apply, idx_v4_v5, v3_at]

/-- The second and third linear layers are the same program text at other arguments. -/
theorem v11_eq (x0 : S8x512x1024.Idx → EReal) (x4 : S1024x1024.Idx → EReal) (x5 : S1024.Idx → EReal) :
    val_main_v11 (F := Ideal) x0 x4 x5 = val_main_v5 (F := Ideal) x0 x4 x5 := rfl

theorem v17_eq (x0 : S8x512x1024.Idx → EReal) (x6 : S1024x1024.Idx → EReal) (x7 : S1024.Idx → EReal) :
    val_main_v17 (F := Ideal) x0 x6 x7 = val_main_v5 (F := Ideal) x0 x6 x7 := rfl

theorem v11_at (x0 : S8x512x1024.Idx → EReal) (x4 : S1024x1024.Idx → EReal) (x5 : S1024.Idx → EReal)
    (b : Fin 8) (h : Fin 16) (s : Fin 512) (d : Fin 64) :
    val_main_v11 (F := Ideal) x0 x4 x5 (ix4 b h s d) = proj x0 x4 x5 b s (lane h d) := by
  rw [v11_eq]; exact v5_at x0 x4 x5 b h s d

theorem v17_at (x0 : S8x512x1024.Idx → EReal) (x6 : S1024x1024.Idx → EReal) (x7 : S1024.Idx → EReal)
    (b : Fin 8) (h : Fin 16) (s : Fin 512) (d : Fin 64) :
    val_main_v17 (F := Ideal) x0 x6 x7 (ix4 b h s d) = proj x0 x6 x7 b s (lane h d) := by
  rw [v17_eq]; exact v5_at x0 x6 x7 b h s d

end Cert.ReferenceIdeal.RefValue

end
-- ==== Proof.RefAttnSoftmax.lean ====
/-
  The reference's scores and softmax, read at an index.

  In head layout the score of query position `s` against key position `t` is the contraction of the two projected
  rows over the 64 coordinates of the head, times the scale word, plus the mask at `[b, t]`.  The softmax is taken
  along the key axis: the row's maximum (a fold of `max` from the word that denotes -∞, taken once more against that
  word), the exponentials of the differences, their sum (from the zero word), and the quotient.
-/
import proofs.«114286_j6004364280065_2_alg».proof.Proof.RefAttnProj

noncomputable section

namespace Cert.ReferenceIdeal.RefValue

open Cert.ReferenceIdeal Cert.ReferenceIdeal.Gen Cert.ReferenceIdeal.Read Idealize.ShloMosaic Idealize.ShloMosaic.ValueIdx Cert.Attn

/-! ## Index equations -/

/-- The score contraction reads the query row at `[b, h, s, ·]` and the key row at `[b, h, t, ·]`. -/
theorem lidx_v18 (b : Fin 8) (h : Fin 16) (s t : Fin 512) (d : Fin 64) :
    lidx_main_v18 (ix4 b h s t) d = ix4 b h s d :=
  funext fun a => Fin.ext (by
    match a with
    | ⟨0, _⟩ => rfl
    | ⟨1, _⟩ => rfl
    | ⟨2, _⟩ => rfl
    | ⟨3, _⟩ => rfl)

theorem ridx_v18 (b : Fin 8) (h : Fin 16) (s t : Fin 512) (d : Fin 64) :
    ridx_main_v18 (ix4 b h s t) d = ix4 b h t d :=
  funext fun a => Fin.ext (by
    match a with
    | ⟨0, _⟩ => rfl
    | ⟨1, _⟩ => rfl
    | ⟨2, _⟩ => rfl
    | ⟨3, _⟩ => rfl)

/-- The mask is broadcast along the head and query axes. -/
theorem idx_v21 (b : Fin 8) (h : Fin 16) (s t : Fin 512) :
    idx_main_v21 (ix4 b h s t) = ix4 b 0 0 t :=
  funext fun a => Fin.ext (by
    match a with
    | ⟨0, _⟩ => rfl
    | ⟨1, _⟩ => rfl
    | ⟨2, _⟩ => rfl
    | ⟨3, _⟩ => rfl)

/-- A per-row value broadcast back along the key axis is read at the row. -/
theorem idx_v26_v27 (b : Fin 8) (h : Fin 16) (s t : Fin 512) :
    idx_main_v26 (idx_main_v27 (ix4 b h s t)) = ix3 b h s :=
  funext fun a => Fin.ext (by
    match a with
    | ⟨0, _⟩ => rfl
    | ⟨1, _⟩ => rfl
    | ⟨2, _⟩ => rfl)

theorem idx_v31_v32 (b : Fin 8) (h : Fin 16) (s t : Fin 512) :
    idx_main_v31 (idx_main_v32 (ix4 b h s t)) = ix3 b h s :=
  funext fun a => Fin.ext (by
    match a with
    | ⟨0, _⟩ => rfl
    | ⟨1, _⟩ => rfl
    | ⟨2, _⟩ => rfl)

/-- The sum along the key axis runs over `[b, h, s, u]`. -/
theorem idx_v30 (b : Fin 8) (h : Fin 16) (s u : Fin 512) :
    idx_main_v30 (ix3 b h s) u = ix4 b h s u :=
  funext fun a => Fin.ext (by
    match a with
    | ⟨0, _⟩ => rfl
    | ⟨1, _⟩ => rfl
    | ⟨2, _⟩ => rfl
    | ⟨3, _⟩ => rfl)

/-- Dropping the key axis of `[8, 16, 512, 512]` leaves `[8, 16, 512]`. -/
theorem reduces_d3 : S8x16x512x512.Reduces [3] S8x16x512 := by decide

/-- The index over row `[b, h, s]` with key coordinate `t` inserted. -/
theorem lift_d3 (b : Fin 8) (h : Fin 16) (s t : Fin 512) :
    reduces_d3.lift (ix3 b h s) t = ix4 b h s t :=
  funext fun c => Fin.ext (by
    match c with
    | ⟨0, _⟩ => rfl
    | ⟨1, _⟩ => rfl
    | ⟨2, _⟩ => rfl
    | ⟨3, _⟩ => rfl)

section Stages

variable (x0 : S8x512x1024.Idx → EReal) (x1 : S8x1x1x512.Idx → EReal) (x2 : S1024x1024.Idx → EReal)
  (x3 : S1024.Idx → EReal) (x4 : S1024x1024.Idx → EReal) (x5 : S1024.Idx → EReal)

/-- The scaled, masked scores. -/
theorem v22_at (b : Fin 8) (h : Fin 16) (s t : Fin 512) :
    val_main_v22 (F := Ideal) x0 x1 x2 x3 x4 x5 (ix4 b h s t)
      = score (proj x0 x2 x3) (proj x0 x4 x5) (maskAt x1) b h s t := by
  rw [val_main_v22_apply, val_main_v20_apply, val_main_v18_apply, val_main_v19_apply, val_main_cst_apply,
    val_main_v21_apply, idx_v21, Ideal.addf_def, Ideal.mulf_def, Ideal.ofBits_def]
  refine congrArg (· + x1 (ix4 b 0 0 t)) ?_
  refine congrArg (· * scale) ?_
  refine Finset.sum_congr rfl fun d _ => ?_
  rw [lidx_v18, ridx_v18, v5_at, v11_at]

/-- The row maximum, folded over the key axis from the word that denotes -∞. -/
theorem v23_at (b : Fin 8) (h : Fin 16) (s : Fin 512) :
    val_main_v23 (F := Ideal) x0 x1 x2 x3 x4 x5 (ix3 b h s)
      = rowMax (score (proj x0 x2 x3) (proj x0 x4 x5) (maskAt x1) b h s) := by
  unfold val_main_v23
  refine (Host.reduce_eq_fold_single (FloatOps.maximumf (F := Ideal) (φ := .f32)) _ _
    reducesTo_S8x16x512x512_S8x16x512_d3 reduces_d3 h_S_ (ix3 b h s)).trans ?_
  have e : (val_main_v22 (F := Ideal) x0 x1 x2 x3 x4 x5 ∘ reduces_d3.lift (ix3 b h s))
      = score (proj x0 x2 x3) (proj x0 x4 x5) (maskAt x1) b h s :=
    funext fun t => (congrArg (val_main_v22 (F := Ideal) x0 x1 x2 x3 x4 x5) (lift_d3 b h s t)).trans
      (v22_at x0 x1 x2 x3 x4 x5 b h s t)
  rw [e]
  rfl

/-- Taken once more against -∞, the row maximum is unchanged. -/
theorem v25_at (b : Fin 8) (h : Fin 16) (s : Fin 512) :
    val_main_v25 (F := Ideal) x0 x1 x2 x3 x4 x5 (ix3 b h s)
      = rowMax (score (proj x0 x2 x3) (proj x0 x4 x5) (maskAt x1) b h s) := by
  rw [val_main_v25_apply, val_main_v24_apply, val_main_cst_1_apply, v23_at, Ideal.maximumf_def, Ideal.ofBits_def]
  exact max_negInf_rowMax _

/-- The unnormalised softmax weights. -/
theorem v29_at (b : Fin 8) (h : Fin 16) (s t : Fin 512) :
    val_main_v29 (F := Ideal) x0 x1 x2 x3 x4 x5 (ix4 b h s t)
      = weight (score (proj x0 x2 x3) (proj x0 x4 x5) (maskAt x1) b h s) t := by
  rw [val_main_v29_apply, val_main_v28_apply, val_main_v27_apply, val_main_v26_apply, idx_v26_v27, v25_at, v22_at,
    Ideal.hostUnary_exp_def, Ideal.subf_def]
  rfl

/-- The softmax denominators: the sum of the weights over the key axis, from zero. -/
theorem v30_at (b : Fin 8) (h : Fin 16) (s : Fin 512) :
    val_main_v30 (F := Ideal) x0 x1 x2 x3 x4 x5 (ix3 b h s)
      = ∑ u : Fin 512, weight (score (proj x0 x2 x3) (proj x0 x4 x5) (maskAt x1) b h s) u := by
  rw [val_main_v30_apply, val_main_cst_2_apply, Ideal.ofBits_def, Ideal.ofBits_zero_f32, zero_add]
  refine Finset.sum_congr rfl fun u _ => ?_
  rw [idx_v30, v29_at]

/-- The softmax. -/
theorem v33_at (b : Fin 8) (h : Fin 16) (s t : Fin 512) :
    val_main_v33 (F := Ideal) x0 x1 x2 x3 x4 x5 (ix4 b h s t)
      = prob (score (proj x0 x2 x3) (proj x0 x4 x5) (maskAt x1) b h s) t := by
  rw [val_main_v33_apply, val_main_v32_apply, val_main_v31_apply, idx_v31_v32, v30_at, v29_at, Ideal.hostDivf_def]
  rfl

end Stages

end Cert.ReferenceIdeal.RefValue

end
-- ==== Proof.RefAttn.lean ====
/-
  The reference program is self-attention.

  The weighted sum over the key axis gives the context in head layout `[8, 16, 512, 64]`; the transpose back to
  `[8, 512, 16, 64]` and the row-major view as `[8, 512, 1024]` put coordinate `d` of head `h` at lane `64·h + d`, so
  lane `e` of the result is coordinate `e % 64` of head `e / 64`.
-/
import proofs.«114286_j6004364280065_2_alg».proof.Proof.RefAttnSoftmax

noncomputable section

namespace Cert.ReferenceIdeal.RefValue

open Cert.ReferenceIdeal Cert.ReferenceIdeal.Read Idealize.ShloMosaic Idealize.ShloMosaic.ValueIdx Cert.Attn

/-- The context contraction reads the softmax row at `[b, h, s, t]` and the value row at `[b, h, t, d]`. -/
theorem lidx_v34 (b : Fin 8) (h : Fin 16) (s : Fin 512) (d : Fin 64) (t : Fin 512) :
    lidx_main_v34 (ix4 b h s d) t = ix4 b h s t :=
  funext fun a => Fin.ext (by
    match a with
    | ⟨0, _⟩ => rfl
    | ⟨1, _⟩ => rfl
    | ⟨2, _⟩ => rfl
    | ⟨3, _⟩ => rfl)

theorem ridx_v34 (b : Fin 8) (h : Fin 16) (s : Fin 512) (d : Fin 64) (t : Fin 512) :
    ridx_main_v34 (ix4 b h s d) t = ix4 b h t d :=
  funext fun a => Fin.ext (by
    match a with
    | ⟨0, _⟩ => rfl
    | ⟨1, _⟩ => rfl
    | ⟨2, _⟩ => rfl
    | ⟨3, _⟩ => rfl)

/-- Row-major `[8, 512, 1024]` against `[8, 512, 16, 64]`, then the transpose: lane `e` at position `s` is
    `[b, e / 64, s, e % 64]` of the head layout. -/
theorem idx_v35_v36 (b : Fin 8) (s : Fin 512) (e : Fin 1024) :
    idx_main_v35 (idx_main_v36 (ix3 b s e)) = ix4 b (headOf e) s (offOf e) := by
  have hb := b.isLt; have hs := s.isLt; have he := e.isLt
  refine funext fun a => Fin.ext ?_
  match a with
  | ⟨0, _⟩ => show ((b.val * 512 + s.val) * 1024 + e.val) / 524288 = b.val; omega
  | ⟨1, _⟩ => show ((b.val * 512 + s.val) * 1024 + e.val) / 64 % 16 = e.val / 64; omega
  | ⟨2, _⟩ => show ((b.val * 512 + s.val) * 1024 + e.val) / 1024 % 512 = s.val; omega
  | ⟨3, _⟩ => show ((b.val * 512 + s.val) * 1024 + e.val) % 64 = e.val % 64; omega

section Stages

variable (x0 : S8x512x1024.Idx → EReal) (x1 : S8x1x1x512.Idx → EReal) (x2 : S1024x1024.Idx → EReal)
  (x3 : S1024.Idx → EReal) (x4 : S1024x1024.Idx → EReal) (x5 : S1024.Idx → EReal) (x6 : S1024x1024.Idx → EReal)
  (x7 : S1024.Idx → EReal)

/-- The context in head layout. -/
theorem v34_at (b : Fin 8) (h : Fin 16) (s : Fin 512) (d : Fin 64) :
    val_main_v34 (F := Ideal) x0 x1 x2 x3 x4 x5 x6 x7 (ix4 b h s d)
      = ctx (proj x0 x2 x3) (proj x0 x4 x5) (proj x0 x6 x7) (maskAt x1) b s h d := by
  rw [val_main_v34_apply]
  refine Finset.sum_congr rfl fun t _ => ?_
  rw [lidx_v34, ridx_v34, v33_at, v17_at]

/-- The result at `[b, s, e]`. -/
theorem v36_at (b : Fin 8) (s : Fin 512) (e : Fin 1024) :
    val_main_v36 (F := Ideal) x0 x1 x2 x3 x4 x5 x6 x7 (ix3 b s e)
      = ctxAt (proj x0 x2 x3) (proj x0 x4 x5) (proj x0 x6 x7) (maskAt x1) b s e := by
  rw [val_main_v36_apply, val_main_v35_apply, idx_v35_v36, v34_at]
  rfl

/-- The reference program computes self-attention of its arguments. -/
theorem ref_eq :
    Cert.ReferenceIdeal.Read.val_main_v36 (F := Ideal) x0 x1 x2 x3 x4 x5 x6 x7
      = Cert.Attn.attn x0 x1 x2 x3 x4 x5 x6 x7 := by
  funext i
  obtain ⟨b, s, e, rfl⟩ : ∃ b s e, i = ix3 b s e := ⟨_, _, _, eq_ix3 i⟩
  exact v36_at x0 x1 x2 x3 x4 x5 x6 x7 b s e

end Stages

end Cert.ReferenceIdeal.RefValue

end
-- ==== Proof.lean ====
/-
  The certificate: a self-attention kernel (three linear layers in one call, softmax attention of two heads per grid step
  in a second call, all in the `[8, 512, 1024]` layout) against a reference that states the same attention head by head on
  arrays of layout `[8, 16, 512, 64]`.

  On the extended reals both programs compute `Cert.Attn.attn` (Proof/AttnSpec.lean) of the eight arguments:
  `softmax ((x Wqᵀ + βq)(x Wkᵀ + βk)ᵀ · 1/8 + mask) · (x Wvᵀ + βv)` head by head.  They differ only in layout and tiling — the
  kernel flattens the batch into rows, blocks the rows by 512, and keeps two heads side by side in a 128-lane slab, where
  the reference splits the model axis into `[16, 64]` and transposes — and in the order in which sums and maxima are
  accumulated, none of which an extended-real sum or maximum depends on; the scale `1/√64` is the same dyadic `0.125` on both
  sides, and the reference's second maximum against `-∞` is the identity.  No step uses finiteness of the inputs.

  * the three frames: the two kernel programs' generated launch proofs, and the reference's run with its result dropped;
  * the idealization rewrote no operation, so `preserves` is `True`;
  * `algebraic`: the kernel's run with its result named (Proof/KernelRun.lean) and read as one function of the arguments
    (Proof/KernelValue.lean, over Proof/ProjRegion.lean, Proof/SlabBody.lean, Proof/AttnRegion.lean, Proof/HostGlue.lean),
    and the reference's run read as the same function (Proof/RefAttn.lean).
-/
import proofs.«114286_j6004364280065_2_alg».proof.Defs
import proofs.«114286_j6004364280065_2_alg».proof.Proof.Gen.Kernel
import proofs.«114286_j6004364280065_2_alg».proof.Proof.Gen.Kernel.Skeleton
import proofs.«114286_j6004364280065_2_alg».proof.Proof.Gen.Kernel.Launch
import proofs.«114286_j6004364280065_2_alg».proof.Proof.Gen.Kernel.Points
import proofs.«114286_j6004364280065_2_alg».proof.Proof.Gen.Kernel.Frame
import proofs.«114286_j6004364280065_2_alg».proof.Proof.Gen.KernelIdeal
import proofs.«114286_j6004364280065_2_alg».proof.Proof.Gen.KernelIdeal.Skeleton
import proofs.«114286_j6004364280065_2_alg».proof.Proof.Gen.KernelIdeal.Launch
import proofs.«114286_j6004364280065_2_alg».proof.Proof.Gen.KernelIdeal.Points
import proofs.«114286_j6004364280065_2_alg».proof.Proof.Gen.KernelIdeal.Frame
import proofs.«114286_j6004364280065_2_alg».proof.Proof.Gen.ReferenceIdeal
import proofs.«114286_j6004364280065_2_alg».proof.Proof.Gen.ReferenceIdeal.Run
import proofs.«114286_j6004364280065_2_alg».proof.Proof.Gen.ReferenceIdeal.Read
import proofs.«114286_j6004364280065_2_alg».proof.Proof.Gen.Pre_finite_inputs
import proofs.«114286_j6004364280065_2_alg».proof.Proof.KernelValue
import proofs.«114286_j6004364280065_2_alg».proof.Proof.RefAttn
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at self-attention of the arguments, which agree. -/
theorem algebraic : Cert.algebraic_KernelIdeal_ReferenceIdeal := by
  intro m ρ m' ρ' _ hagree
  refine ⟨fun c => Cert.Attn.attn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.WholeValue.result_eq m ρ c), (h c).2⟩)
      (Cert.KernelIdeal.RunValue.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v36_eq, Cert.ReferenceIdeal.RefValue.ref_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
